-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x1 .f32) (main_arg11 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x3 .f32) (main_arg1 : IVec S2x1600000 32) (main_arg2 : FVec F S3x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x3 : Shape := ⟨2, ![10000, 3]⟩
abbrev S10000x64 : Shape := ⟨2, ![10000, 64]⟩
abbrev S1700000x64 : Shape := ⟨2, ![1700000, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 132
  | .vmem => 45
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .i1⟩
  | 31 => ⟨S_, .f32⟩
  | 32 => ⟨S_, .f32⟩
  | 33 => ⟨S100000, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .f32⟩
  | 63 => ⟨S64, .f32⟩
  | 64 => ⟨S1x64, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S_, .f32⟩
  | 85 => ⟨S64, .f32⟩
  | 86 => ⟨S1x64, .f32⟩
  | 87 => ⟨S100000x64, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x64, .f32⟩
  | 97 => ⟨S1700000x1, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S1x64, .f32⟩
  | 105 => ⟨S100000x64, .f32⟩
  | 106 => ⟨S_, .f32⟩
  | 107 => ⟨S64, .f32⟩
  | 108 => ⟨S1x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x3, .f32⟩

abbrev hbmTy0_1 (i : Nat) : BufTy := match i % 128 with
  | 0 => ⟨S1x64, .f32⟩
  | 1 => ⟨S100000x64, .f32⟩
  | 2 => ⟨S1x1, .f32⟩
  | 3 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S64x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x1, .f32⟩
  | .local _ .vmem, ⟨42, _⟩ => ⟨S1x1, .f32⟩
  | .local _ .vmem, ⟨43, _⟩ => ⟨S10000x1, .f32⟩
  | .local _ .vmem, ⟨44, _⟩ => ⟨S10000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64 : S_.BroadcastsInDim S64 (![] : Fin 0 → Fin S64.rank)
  shapeCasts_S64_S1x64 : S64.ShapeCasts S1x64
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x3_S3x64_S10000x64_1_0_0_1_n_n_wf : DotDims.WF S10000x3 S3x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x1.size a ≤ S100000x1.size a
  hwx7_3 : ∀ i : grid7.Coords, EltTy.bits .f32 = 32 ∨ (Rect.block (s := S100000x1) S10000x1.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v86) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v88) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v92) S10000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 242
  | .vmem => 0
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S100000x64, .f32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .i1⟩
  | 32 => ⟨S_, .f32⟩
  | 33 => ⟨S_, .f32⟩
  | 34 => ⟨S100000, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x64, .f32⟩
  | 72 => ⟨S1700000x1, .f32⟩
  | 73 => ⟨S1700000x64, .f32⟩
  | 74 => ⟨S1700000x64, .f32⟩
  | 75 => ⟨S_, .f32⟩
  | 76 => ⟨S100000x64, .f32⟩
  | 77 => ⟨S1700000x1, .i32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000, .i32⟩
  | 86 => ⟨S1700000, .i32⟩
  | 87 => ⟨S1700000, .i32⟩
  | 88 => ⟨S100000x64, .f32⟩
  | 89 => ⟨S_, .f32⟩
  | 90 => ⟨S1700000, .f32⟩
  | 91 => ⟨S_, .f32⟩
  | 92 => ⟨S100000, .f32⟩
  | 93 => ⟨S1700000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .i1⟩
  | 101 => ⟨S_, .f32⟩
  | 102 => ⟨S_, .f32⟩
  | 103 => ⟨S100000, .f32⟩
  | 104 => ⟨S100000, .f32⟩
  | 105 => ⟨S100000, .f32⟩
  | 106 => ⟨S_, .f32⟩
  | 107 => ⟨S100000, .f32⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x3, .f32⟩

abbrev hbmTy0_1 (i : Nat) : BufTy := match i % 128 with
  | 0 => ⟨S1700000, .i32⟩
  | 1 => ⟨S1700000x1, .i32⟩
  | 2 => ⟨S1700000, .f32⟩
  | 3 => ⟨S1700000, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x64, .f32⟩
  | 13 => ⟨S1700000x1, .f32⟩
  | 14 => ⟨S1700000x64, .f32⟩
  | 15 => ⟨S1700000x64, .f32⟩
  | 16 => ⟨S_, .f32⟩
  | 17 => ⟨S100000x64, .f32⟩
  | 18 => ⟨S1700000x1, .i32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000, .i32⟩
  | 27 => ⟨S1700000, .i32⟩
  | 28 => ⟨S1700000, .i32⟩
  | 29 => ⟨S100000x64, .f32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .i1⟩
  | 42 => ⟨S_, .f32⟩
  | 43 => ⟨S_, .f32⟩
  | 44 => ⟨S100000, .f32⟩
  | 45 => ⟨S100000, .f32⟩
  | 46 => ⟨S100000, .f32⟩
  | 47 => ⟨S_, .f32⟩
  | 48 => ⟨S100000, .f32⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S1700000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x1, .f32⟩
  | 103 => ⟨S1x1, .f32⟩
  | 104 => ⟨S100000x1, .f32⟩
  | 105 => ⟨S100000x1, .f32⟩
  | 106 => ⟨S100000x1, .f32⟩
  | 107 => ⟨S100000x1, .f32⟩
  | 108 => ⟨S_, .f32⟩
  | 109 => ⟨S100000x1, .f32⟩
  | 110 => ⟨S100000x1, .f32⟩
  | 111 => ⟨S_, .f32⟩
  | 112 => ⟨S100000x1, .f32⟩
  | 113 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_c_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call2_cst : Ref sig .tc := ⟨.hbm, 82, rfl⟩
abbrev main_call2_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_call3_v0 : Ref sig .tc := ⟨.hbm, 102, rfl⟩
abbrev main_call3_v1 : Ref sig .tc := ⟨.hbm, 103, rfl⟩
abbrev main_v65 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_call4_v0 : Ref sig .tc := ⟨.hbm, 110, rfl⟩
abbrev main_call4_v1 : Ref sig .tc := ⟨.hbm, 111, rfl⟩
abbrev main_v69 : Ref sig .tc := ⟨.hbm, 112, rfl⟩
abbrev main_c_19 : Ref sig .tc := ⟨.hbm, 113, rfl⟩
abbrev main_v70 : Ref sig .tc := ⟨.hbm, 114, rfl⟩
abbrev main_v71 : Ref sig .tc := ⟨.hbm, 115, rfl⟩
abbrev main_c_20 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_21 : Ref sig .tc := ⟨.hbm, 122, rfl⟩
abbrev main_v77 : Ref sig .tc := ⟨.hbm, 123, rfl⟩
abbrev main_v78 : Ref sig .tc := ⟨.hbm, 124, rfl⟩
abbrev main_c_22 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_23 : Ref sig .tc := ⟨.hbm, 132, rfl⟩
abbrev main_v85 : Ref sig .tc := ⟨.hbm, 133, rfl⟩
abbrev main_v86 : Ref sig .tc := ⟨.hbm, 134, rfl⟩
abbrev main_c_24 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_25 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call5_cst : Ref sig .tc := ⟨.hbm, 151, rfl⟩
abbrev main_call5_v0 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_26 : Ref sig .tc := ⟨.hbm, 158, rfl⟩
abbrev main_v106 : Ref sig .tc := ⟨.hbm, 159, rfl⟩
abbrev main_cst_27 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_28 : Ref sig .tc := ⟨.hbm, 164, rfl⟩
abbrev main_v110 : Ref sig .tc := ⟨.hbm, 165, rfl⟩
abbrev main_v111 : Ref sig .tc := ⟨.hbm, 166, rfl⟩
abbrev main_cst_29 : Ref sig .tc := ⟨.hbm, 167, rfl⟩
abbrev main_v112 : Ref sig .tc := ⟨.hbm, 168, rfl⟩
abbrev main_v113 : Ref sig .tc := ⟨.hbm, 169, rfl⟩
abbrev main_cst_30 : Ref sig .tc := ⟨.hbm, 170, rfl⟩
abbrev main_call6_v0 : Ref sig .tc := ⟨.hbm, 171, rfl⟩
abbrev main_call6_v1 : Ref sig .tc := ⟨.hbm, 172, rfl⟩
abbrev main_v114 : Ref sig .tc := ⟨.hbm, 173, rfl⟩
abbrev main_v115 : Ref sig .tc := ⟨.hbm, 174, rfl⟩
abbrev main_cst_31 : Ref sig .tc := ⟨.hbm, 175, rfl⟩
abbrev main_v116 : Ref sig .tc := ⟨.hbm, 176, rfl⟩
abbrev main_v117 : Ref sig .tc := ⟨.hbm, 177, rfl⟩
abbrev main_cst_32 : Ref sig .tc := ⟨.hbm, 178, rfl⟩
abbrev main_call7_v0 : Ref sig .tc := ⟨.hbm, 179, rfl⟩
abbrev main_call7_v1 : Ref sig .tc := ⟨.hbm, 180, rfl⟩
abbrev main_v118 : Ref sig .tc := ⟨.hbm, 181, rfl⟩
abbrev main_c_33 : Ref sig .tc := ⟨.hbm, 182, rfl⟩
abbrev main_v119 : Ref sig .tc := ⟨.hbm, 183, rfl⟩
abbrev main_v120 : Ref sig .tc := ⟨.hbm, 184, rfl⟩
abbrev main_c_34 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_35 : Ref sig .tc := ⟨.hbm, 191, rfl⟩
abbrev main_v126 : Ref sig .tc := ⟨.hbm, 192, rfl⟩
abbrev main_v127 : Ref sig .tc := ⟨.hbm, 193, rfl⟩
abbrev main_c_36 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_c_37 : Ref sig .tc := ⟨.hbm, 201, rfl⟩
abbrev main_v134 : Ref sig .tc := ⟨.hbm, 202, rfl⟩
abbrev main_v135 : Ref sig .tc := ⟨.hbm, 203, rfl⟩
abbrev main_c_38 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_cst_39 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_call8_cst : Ref sig .tc := ⟨.hbm, 220, rfl⟩
abbrev main_call8_v0 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_call9_cst : Ref sig .tc := ⟨.hbm, 227, rfl⟩
abbrev main_call9_v0 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_40 : Ref sig .tc := ⟨.hbm, 236, rfl⟩
abbrev main_v162 : Ref sig .tc := ⟨.hbm, 237, rfl⟩
abbrev main_v163 : Ref sig .tc := ⟨.hbm, 238, rfl⟩
abbrev main_cst_41 : Ref sig .tc := ⟨.hbm, 239, rfl⟩
abbrev main_v164 : Ref sig .tc := ⟨.hbm, 240, rfl⟩
abbrev main_v165 : Ref sig .tc := ⟨.hbm, 241, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x3_S3x64_S100000x64_1_0_0_1_n_n_wf : DotDims.WF S100000x3 S3x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run, with the result named.

  @main is eight tiled regions among stretches of host operations.  The launch of that chain of segments ends in
  a state where every buffer holds the last boundary's contents; the frame reads only the argument arrays off that
  state.  Here the same launch is read once more at the result buffer: after every weakly fair execution the
  result array holds the last boundary's contents at the result's reference, and the arguments are unchanged.
-/
import proofs.«166200_j68444598829350_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and every argument array as launched. -/
theorem run_result : θ_run defs (onTc (τ := τ) (main (F := F))) ⟨m, fun _ => 0, ρ⟩ (fun r => ∀ c : Dev nD,
      r.2.mem ((c.tc : Thread nD τ).loc main_v92) = W20 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v92 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c)⟩)

end Cert.KernelIdeal.Gen

end
-- ==== Proof.Keep.lean ====
/-
  Which buffers pass which segments of @main untouched.

  A host operation writes one buffer and a region writes its output arrays; every other buffer holds after the
  segment what it held before.  Each chain below walks one buffer back over the segments between two boundaries,
  checking at every host stretch that no operation of the stretch writes it and at every region that it is none of
  the region's arrays.
-/
import proofs.«166200_j68444598829350_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

/-- No operation of the host stretch writes the buffer. -/
macro "keep_host" : tactic => `(tactic| exact StableHlo.after_of_forall_not_mem _ _ (List.forall_iff_forall_mem.mp (by
  simp only [hostOps0, hostOps0_1, hostOps0_2, hostOps0_3, hostOps0_4, hostOps1, hostOps2, hostOps3, hostOps4, hostOps5, hostOps6, hostOps7,
    List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

variable {F : FTy → Type} [FloatOps F]
variable (m : (ℓ : Loc nD τ sig) → Buf (Elt F) ℓ) (ρ : Dev nD → PrngReg) (c : Dev nD)

theorem keep_arg0_5_0 : W5 m ρ c (Proc.devRef .tc main_arg0) = W0 m ρ c (Proc.devRef .tc main_arg0) :=
  calc W5 m ρ c (Proc.devRef .tc main_arg0)
    _ = W4 m ρ c (Proc.devRef .tc main_arg0) := by keep_host
    _ = W3 m ρ c (Proc.devRef .tc main_arg0) := by keep_host
    _ = W2 m ρ c (Proc.devRef .tc main_arg0) := by keep_host
    _ = W1 m ρ c (Proc.devRef .tc main_arg0) := by keep_host
    _ = W0 m ρ c (Proc.devRef .tc main_arg0) := by keep_host

theorem keep_arg2_5_0 : W5 m ρ c (Proc.devRef .tc main_arg2) = W0 m ρ c (Proc.devRef .tc main_arg2) :=
  calc W5 m ρ c (Proc.devRef .tc main_arg2)
    _ = W4 m ρ c (Proc.devRef .tc main_arg2) := by keep_host
    _ = W3 m ρ c (Proc.devRef .tc main_arg2) := by keep_host
    _ = W2 m ρ c (Proc.devRef .tc main_arg2) := by keep_host
    _ = W1 m ρ c (Proc.devRef .tc main_arg2) := by keep_host
    _ = W0 m ρ c (Proc.devRef .tc main_arg2) := by keep_host

theorem keep_arg3_6_0 : W6 m ρ c (Proc.devRef .tc main_arg3) = W0 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := by keep_host
    _ = W3 m ρ c (Proc.devRef .tc main_arg3) := by keep_host
    _ = W2 m ρ c (Proc.devRef .tc main_arg3) := by keep_host
    _ = W1 m ρ c (Proc.devRef .tc main_arg3) := by keep_host
    _ = W0 m ρ c (Proc.devRef .tc main_arg3) := by keep_host

theorem keep_arg4_9_0 : W9 m ρ c (Proc.devRef .tc main_arg4) = W0 m ρ c (Proc.devRef .tc main_arg4) :=
  calc W9 m ρ c (Proc.devRef .tc main_arg4)
    _ = W8 m ρ c (Proc.devRef .tc main_arg4) := by keep_host
    _ = W7 m ρ c (Proc.devRef .tc main_arg4) := W8_of_ne m ρ c main_arg4 (by decide)
    _ = W6 m ρ c (Proc.devRef .tc main_arg4) := by keep_host
    _ = W5 m ρ c (Proc.devRef .tc main_arg4) := W6_of_ne m ρ c main_arg4 (by decide)
    _ = W4 m ρ c (Proc.devRef .tc main_arg4) := by keep_host
    _ = W3 m ρ c (Proc.devRef .tc main_arg4) := by keep_host
    _ = W2 m ρ c (Proc.devRef .tc main_arg4) := by keep_host
    _ = W1 m ρ c (Proc.devRef .tc main_arg4) := by keep_host
    _ = W0 m ρ c (Proc.devRef .tc main_arg4) := by keep_host

theorem keep_arg5_10_0 : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := by keep_host
    _ = W7 m ρ c (Proc.devRef .tc main_arg5) := W8_of_ne m ρ c main_arg5 (by decide)
    _ = W6 m ρ c (Proc.devRef .tc main_arg5) := by keep_host
    _ = W5 m ρ c (Proc.devRef .tc main_arg5) := W6_of_ne m ρ c main_arg5 (by decide)
    _ = W4 m ρ c (Proc.devRef .tc main_arg5) := by keep_host
    _ = W3 m ρ c (Proc.devRef .tc main_arg5) := by keep_host
    _ = W2 m ρ c (Proc.devRef .tc main_arg5) := by keep_host
    _ = W1 m ρ c (Proc.devRef .tc main_arg5) := by keep_host
    _ = W0 m ρ c (Proc.devRef .tc main_arg5) := by keep_host

theorem keep_arg6_13_0 : W13 m ρ c (Proc.devRef .tc main_arg6) = W0 m ρ c (Proc.devRef .tc main_arg6) :=
  calc W13 m ρ c (Proc.devRef .tc main_arg6)
    _ = W12 m ρ c (Proc.devRef .tc main_arg6) := by keep_host
    _ = W11 m ρ c (Proc.devRef .tc main_arg6) := W12_of_ne m ρ c main_arg6 (by decide)
    _ = W10 m ρ c (Proc.devRef .tc main_arg6) := by keep_host
    _ = W9 m ρ c (Proc.devRef .tc main_arg6) := W10_of_ne m ρ c main_arg6 (by decide)
    _ = W8 m ρ c (Proc.devRef .tc main_arg6) := by keep_host
    _ = W7 m ρ c (Proc.devRef .tc main_arg6) := W8_of_ne m ρ c main_arg6 (by decide)
    _ = W6 m ρ c (Proc.devRef .tc main_arg6) := by keep_host
    _ = W5 m ρ c (Proc.devRef .tc main_arg6) := W6_of_ne m ρ c main_arg6 (by decide)
    _ = W4 m ρ c (Proc.devRef .tc main_arg6) := by keep_host
    _ = W3 m ρ c (Proc.devRef .tc main_arg6) := by keep_host
    _ = W2 m ρ c (Proc.devRef .tc main_arg6) := by keep_host
    _ = W1 m ρ c (Proc.devRef .tc main_arg6) := by keep_host
    _ = W0 m ρ c (Proc.devRef .tc main_arg6) := by keep_host

theorem keep_arg7_14_0 : W14 m ρ c (Proc.devRef .tc main_arg7) = W0 m ρ c (Proc.devRef .tc main_arg7) :=
  calc W14 m ρ c (Proc.devRef .tc main_arg7)
    _ = W13 m ρ c (Proc.devRef .tc main_arg7) := W14_of_ne m ρ c main_arg7 (by decide)
    _ = W12 m ρ c (Proc.devRef .tc main_arg7) := by keep_host
    _ = W11 m ρ c (Proc.devRef .tc main_arg7) := W12_of_ne m ρ c main_arg7 (by decide)
    _ = W10 m ρ c (Proc.devRef .tc main_arg7) := by keep_host
    _ = W9 m ρ c (Proc.devRef .tc main_arg7) := W10_of_ne m ρ c main_arg7 (by decide)
    _ = W8 m ρ c (Proc.devRef .tc main_arg7) := by keep_host
    _ = W7 m ρ c (Proc.devRef .tc main_arg7) := W8_of_ne m ρ c main_arg7 (by decide)
    _ = W6 m ρ c (Proc.devRef .tc main_arg7) := by keep_host
    _ = W5 m ρ c (Proc.devRef .tc main_arg7) := W6_of_ne m ρ c main_arg7 (by decide)
    _ = W4 m ρ c (Proc.devRef .tc main_arg7) := by keep_host
    _ = W3 m ρ c (Proc.devRef .tc main_arg7) := by keep_host
    _ = W2 m ρ c (Proc.devRef .tc main_arg7) := by keep_host
    _ = W1 m ρ c (Proc.devRef .tc main_arg7) := by keep_host
    _ = W0 m ρ c (Proc.devRef .tc main_arg7) := by keep_host

theorem keep_arg8_17_0 : W17 m ρ c (Proc.devRef .tc main_arg8) = W0 m ρ c (Proc.devRef .tc main_arg8) :=
  calc W17 m ρ c (Proc.devRef .tc main_arg8)
    _ = W16 m ρ c (Proc.devRef .tc main_arg8) := by keep_host
    _ = W15 m ρ c (Proc.devRef .tc main_arg8) := W16_of_ne m ρ c main_arg8 (by decide)
    _ = W14 m ρ c (Proc.devRef .tc main_arg8) := by keep_host
    _ = W13 m ρ c (Proc.devRef .tc main_arg8) := W14_of_ne m ρ c main_arg8 (by decide)
    _ = W12 m ρ c (Proc.devRef .tc main_arg8) := by keep_host
    _ = W11 m ρ c (Proc.devRef .tc main_arg8) := W12_of_ne m ρ c main_arg8 (by decide)
    _ = W10 m ρ c (Proc.devRef .tc main_arg8) := by keep_host
    _ = W9 m ρ c (Proc.devRef .tc main_arg8) := W10_of_ne m ρ c main_arg8 (by decide)
    _ = W8 m ρ c (Proc.devRef .tc main_arg8) := by keep_host
    _ = W7 m ρ c (Proc.devRef .tc main_arg8) := W8_of_ne m ρ c main_arg8 (by decide)
    _ = W6 m ρ c (Proc.devRef .tc main_arg8) := by keep_host
    _ = W5 m ρ c (Proc.devRef .tc main_arg8) := W6_of_ne m ρ c main_arg8 (by decide)
    _ = W4 m ρ c (Proc.devRef .tc main_arg8) := by keep_host
    _ = W3 m ρ c (Proc.devRef .tc main_arg8) := by keep_host
    _ = W2 m ρ c (Proc.devRef .tc main_arg8) := by keep_host
    _ = W1 m ρ c (Proc.devRef .tc main_arg8) := by keep_host
    _ = W0 m ρ c (Proc.devRef .tc main_arg8) := by keep_host

theorem keep_arg9_16_0 : W16 m ρ c (Proc.devRef .tc main_arg9) = W0 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := by keep_host
    _ = W13 m ρ c (Proc.devRef .tc main_arg9) := W14_of_ne m ρ c main_arg9 (by decide)
    _ = W12 m ρ c (Proc.devRef .tc main_arg9) := by keep_host
    _ = W11 m ρ c (Proc.devRef .tc main_arg9) := W12_of_ne m ρ c main_arg9 (by decide)
    _ = W10 m ρ c (Proc.devRef .tc main_arg9) := by keep_host
    _ = W9 m ρ c (Proc.devRef .tc main_arg9) := W10_of_ne m ρ c main_arg9 (by decide)
    _ = W8 m ρ c (Proc.devRef .tc main_arg9) := by keep_host
    _ = W7 m ρ c (Proc.devRef .tc main_arg9) := W8_of_ne m ρ c main_arg9 (by decide)
    _ = W6 m ρ c (Proc.devRef .tc main_arg9) := by keep_host
    _ = W5 m ρ c (Proc.devRef .tc main_arg9) := W6_of_ne m ρ c main_arg9 (by decide)
    _ = W4 m ρ c (Proc.devRef .tc main_arg9) := by keep_host
    _ = W3 m ρ c (Proc.devRef .tc main_arg9) := by keep_host
    _ = W2 m ρ c (Proc.devRef .tc main_arg9) := by keep_host
    _ = W1 m ρ c (Proc.devRef .tc main_arg9) := by keep_host
    _ = W0 m ρ c (Proc.devRef .tc main_arg9) := by keep_host

theorem keep_arg10_19_0 : W19 m ρ c (Proc.devRef .tc main_arg10) = W0 m ρ c (Proc.devRef .tc main_arg10) :=
  calc W19 m ρ c (Proc.devRef .tc main_arg10)
    _ = W18 m ρ c (Proc.devRef .tc main_arg10) := by keep_host
    _ = W17 m ρ c (Proc.devRef .tc main_arg10) := W18_of_ne m ρ c main_arg10 (by decide)
    _ = W16 m ρ c (Proc.devRef .tc main_arg10) := by keep_host
    _ = W15 m ρ c (Proc.devRef .tc main_arg10) := W16_of_ne m ρ c main_arg10 (by decide)
    _ = W14 m ρ c (Proc.devRef .tc main_arg10) := by keep_host
    _ = W13 m ρ c (Proc.devRef .tc main_arg10) := W14_of_ne m ρ c main_arg10 (by decide)
    _ = W12 m ρ c (Proc.devRef .tc main_arg10) := by keep_host
    _ = W11 m ρ c (Proc.devRef .tc main_arg10) := W12_of_ne m ρ c main_arg10 (by decide)
    _ = W10 m ρ c (Proc.devRef .tc main_arg10) := by keep_host
    _ = W9 m ρ c (Proc.devRef .tc main_arg10) := W10_of_ne m ρ c main_arg10 (by decide)
    _ = W8 m ρ c (Proc.devRef .tc main_arg10) := by keep_host
    _ = W7 m ρ c (Proc.devRef .tc main_arg10) := W8_of_ne m ρ c main_arg10 (by decide)
    _ = W6 m ρ c (Proc.devRef .tc main_arg10) := by keep_host
    _ = W5 m ρ c (Proc.devRef .tc main_arg10) := W6_of_ne m ρ c main_arg10 (by decide)
    _ = W4 m ρ c (Proc.devRef .tc main_arg10) := by keep_host
    _ = W3 m ρ c (Proc.devRef .tc main_arg10) := by keep_host
    _ = W2 m ρ c (Proc.devRef .tc main_arg10) := by keep_host
    _ = W1 m ρ c (Proc.devRef .tc main_arg10) := by keep_host
    _ = W0 m ρ c (Proc.devRef .tc main_arg10) := by keep_host

theorem keep_arg11_18_0 : W18 m ρ c (Proc.devRef .tc main_arg11) = W0 m ρ c (Proc.devRef .tc main_arg11) :=
  calc W18 m ρ c (Proc.devRef .tc main_arg11)
    _ = W17 m ρ c (Proc.devRef .tc main_arg11) := W18_of_ne m ρ c main_arg11 (by decide)
    _ = W16 m ρ c (Proc.devRef .tc main_arg11) := by keep_host
    _ = W15 m ρ c (Proc.devRef .tc main_arg11) := W16_of_ne m ρ c main_arg11 (by decide)
    _ = W14 m ρ c (Proc.devRef .tc main_arg11) := by keep_host
    _ = W13 m ρ c (Proc.devRef .tc main_arg11) := W14_of_ne m ρ c main_arg11 (by decide)
    _ = W12 m ρ c (Proc.devRef .tc main_arg11) := by keep_host
    _ = W11 m ρ c (Proc.devRef .tc main_arg11) := W12_of_ne m ρ c main_arg11 (by decide)
    _ = W10 m ρ c (Proc.devRef .tc main_arg11) := by keep_host
    _ = W9 m ρ c (Proc.devRef .tc main_arg11) := W10_of_ne m ρ c main_arg11 (by decide)
    _ = W8 m ρ c (Proc.devRef .tc main_arg11) := by keep_host
    _ = W7 m ρ c (Proc.devRef .tc main_arg11) := W8_of_ne m ρ c main_arg11 (by decide)
    _ = W6 m ρ c (Proc.devRef .tc main_arg11) := by keep_host
    _ = W5 m ρ c (Proc.devRef .tc main_arg11) := W6_of_ne m ρ c main_arg11 (by decide)
    _ = W4 m ρ c (Proc.devRef .tc main_arg11) := by keep_host
    _ = W3 m ρ c (Proc.devRef .tc main_arg11) := by keep_host
    _ = W2 m ρ c (Proc.devRef .tc main_arg11) := by keep_host
    _ = W1 m ρ c (Proc.devRef .tc main_arg11) := by keep_host
    _ = W0 m ρ c (Proc.devRef .tc main_arg11) := by keep_host

theorem keep_v5_6_5 : W6 m ρ c (Proc.devRef .tc main_v5) = W5 m ρ c (Proc.devRef .tc main_v5) :=
  calc W6 m ρ c (Proc.devRef .tc main_v5)
    _ = W5 m ρ c (Proc.devRef .tc main_v5) := W6_of_ne m ρ c main_v5 (by decide)

theorem keep_v6_6_5 : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

theorem keep_v34_6_5 : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

theorem keep_v5_10_6 : W10 m ρ c (Proc.devRef .tc main_v5) = W6 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := by keep_host
    _ = W7 m ρ c (Proc.devRef .tc main_v5) := W8_of_ne m ρ c main_v5 (by decide)
    _ = W6 m ρ c (Proc.devRef .tc main_v5) := by keep_host

theorem keep_v6_10_6 : W10 m ρ c (Proc.devRef .tc main_v6) = W6 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by keep_host
    _ = W7 m ρ c (Proc.devRef .tc main_v6) := W8_of_ne m ρ c main_v6 (by decide)
    _ = W6 m ρ c (Proc.devRef .tc main_v6) := by keep_host

theorem keep_v34_10_6 : W10 m ρ c (Proc.devRef .tc main_v34) = W6 m ρ c (Proc.devRef .tc main_v34) :=
  calc W10 m ρ c (Proc.devRef .tc main_v34)
    _ = W9 m ρ c (Proc.devRef .tc main_v34) := W10_of_ne m ρ c main_v34 (by decide)
    _ = W8 m ρ c (Proc.devRef .tc main_v34) := by keep_host
    _ = W7 m ρ c (Proc.devRef .tc main_v34) := W8_of_ne m ρ c main_v34 (by decide)
    _ = W6 m ρ c (Proc.devRef .tc main_v34) := by keep_host

theorem keep_v5_14_10 : W14 m ρ c (Proc.devRef .tc main_v5) = W10 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := by keep_host
    _ = W11 m ρ c (Proc.devRef .tc main_v5) := W12_of_ne m ρ c main_v5 (by decide)
    _ = W10 m ρ c (Proc.devRef .tc main_v5) := by keep_host

theorem keep_v6_14_10 : W14 m ρ c (Proc.devRef .tc main_v6) = W10 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by keep_host
    _ = W11 m ρ c (Proc.devRef .tc main_v6) := W12_of_ne m ρ c main_v6 (by decide)
    _ = W10 m ρ c (Proc.devRef .tc main_v6) := by keep_host

theorem keep_v34_14_10 : W14 m ρ c (Proc.devRef .tc main_v34) = W10 m ρ c (Proc.devRef .tc main_v34) :=
  calc W14 m ρ c (Proc.devRef .tc main_v34)
    _ = W13 m ρ c (Proc.devRef .tc main_v34) := W14_of_ne m ρ c main_v34 (by decide)
    _ = W12 m ρ c (Proc.devRef .tc main_v34) := by keep_host
    _ = W11 m ρ c (Proc.devRef .tc main_v34) := W12_of_ne m ρ c main_v34 (by decide)
    _ = W10 m ρ c (Proc.devRef .tc main_v34) := by keep_host

theorem keep_v52_9_8 : W9 m ρ c (Proc.devRef .tc main_v52) = W8 m ρ c (Proc.devRef .tc main_v52) :=
  calc W9 m ρ c (Proc.devRef .tc main_v52)
    _ = W8 m ρ c (Proc.devRef .tc main_v52) := by keep_host

theorem keep_v70_13_12 : W13 m ρ c (Proc.devRef .tc main_v70) = W12 m ρ c (Proc.devRef .tc main_v70) :=
  calc W13 m ρ c (Proc.devRef .tc main_v70)
    _ = W12 m ρ c (Proc.devRef .tc main_v70) := by keep_host

theorem keep_v88_17_16 : W17 m ρ c (Proc.devRef .tc main_v88) = W16 m ρ c (Proc.devRef .tc main_v88) :=
  calc W17 m ρ c (Proc.devRef .tc main_v88)
    _ = W16 m ρ c (Proc.devRef .tc main_v88) := by keep_host

theorem keep_v90_19_18 : W19 m ρ c (Proc.devRef .tc main_v90) = W18 m ρ c (Proc.devRef .tc main_v90) :=
  calc W19 m ρ c (Proc.devRef .tc main_v90)
    _ = W18 m ρ c (Proc.devRef .tc main_v90) := by keep_host

end Cert.KernelIdeal.Keep

end
-- ==== Proof.HostVals.lean ====
/-
  The kernel's host stretches, as values.

  Before the first region @main builds, from the edge list alone, the source and destination of every edge (the
  listed edges followed by one loop per node) and the edge weights `d(src)^(-1/2) * d(dst)^(-1/2)` from the
  in-degrees.  These are the very operations the reference applies (there once per layer), so the three buffers
  hold the reference's stages of the same edge list.  After each of the first three matrix-product regions a
  stretch gathers the product's rows at the sources, scales them by the weights and adds them up at the
  destinations: `aggregate`.  The remaining stretches lay a bias vector out as one row, or write a row of zeros.
-/
import proofs.«166200_j68444598829350_1_alg».proof.Proof.Gen.KernelIdeal.Frame
import proofs.«166200_j68444598829350_1_alg».proof.Proof.ReadP
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.HostVals

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-- Gather the rows of `h` at the sources `s` (a negative index counted from the end), scale row `e` by `w e`,
    and add the rows up at the destinations `d`, starting from zero. -/
def aggregate (s d : (⟨S1700000, .i32⟩ : BufTy).Contents (Elt F)) (w : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1
        (broadcastInDim S1700000x1 ![0] bcast_S1700000_S1700000x1_0 w)))

section Reference

variable (x0 : (⟨S100000x3, .f32⟩ : BufTy).Contents (Elt F)) (x1 : (⟨S2x1600000, .i32⟩ : BufTy).Contents (Elt F))
  (x2 : (⟨S3x64, .f32⟩ : BufTy).Contents (Elt F)) (x3 : (⟨S64, .f32⟩ : BufTy).Contents (Elt F))
  (x4 : (⟨S64x64, .f32⟩ : BufTy).Contents (Elt F)) (x5 : (⟨S64, .f32⟩ : BufTy).Contents (Elt F))
  (x6 : (⟨S64x64, .f32⟩ : BufTy).Contents (Elt F))

/-- The reference's first aggregation is `aggregate` of its sources, destinations and weights and its first product. -/
theorem aggregate_v48 : aggregate (Cert.ReferenceIdeal.ReadP.val_main_v5 (F := F) x1) (Cert.ReferenceIdeal.ReadP.val_main_v6 (F := F) x1) (Cert.ReferenceIdeal.ReadP.val_main_v35 (F := F) x1)
    (Cert.ReferenceIdeal.ReadP.val_main_v7 (F := F) x0 x2) = Cert.ReferenceIdeal.ReadP.val_main_v48 (F := F) x0 x1 x2 := rfl

/-- The reference's second aggregation: it rebuilds sources, destinations and weights from the same edge list, by the
    same operations. -/
theorem aggregate_v97 : aggregate (Cert.ReferenceIdeal.ReadP.val_main_v5 (F := F) x1) (Cert.ReferenceIdeal.ReadP.val_main_v6 (F := F) x1) (Cert.ReferenceIdeal.ReadP.val_main_v35 (F := F) x1)
    (Cert.ReferenceIdeal.ReadP.val_main_v56 (F := F) x0 x1 x2 x3 x4) = Cert.ReferenceIdeal.ReadP.val_main_v97 (F := F) x0 x1 x2 x3 x4 := rfl

/-- The reference's third aggregation, likewise. -/
theorem aggregate_v146 : aggregate (Cert.ReferenceIdeal.ReadP.val_main_v5 (F := F) x1) (Cert.ReferenceIdeal.ReadP.val_main_v6 (F := F) x1) (Cert.ReferenceIdeal.ReadP.val_main_v35 (F := F) x1)
    (Cert.ReferenceIdeal.ReadP.val_main_v105 (F := F) x0 x1 x2 x3 x4 x5 x6) = Cert.ReferenceIdeal.ReadP.val_main_v146 (F := F) x0 x1 x2 x3 x4 x5 x6 := rfl

end Reference

variable (m : (ℓ : Loc nD τ sig) → Buf (Elt F) ℓ) (ρ : Dev nD → PrngReg) (c : Dev nD)

/-- Contents carried to a buffer's own type and back are the contents. -/
theorem ofBuf_toBuf {T : BufTy} (x : TRef sig T) (v : T.Contents (Elt F)) : x.ofBuf (x.toBuf v) = v := by
  obtain ⟨r, rfl, h1, h2⟩ := x
  rfl

/-! ### The first stretch: sources, destinations, in-degrees -/

/-- After the first stretch: the edge sources, the listed ones followed by one loop per node. -/
theorem sources1 : W1 m ρ c (Proc.devRef .tc main_v5) = Cert.ReferenceIdeal.ReadP.val_main_v5 (F := F) (m ((c : Thread nD τ).loc main_arg1)) := by
  dsimp only [W1]
  after_results_simp
  rfl

/-- After the first stretch: the edge destinations. -/
theorem destinations1 : W1 m ρ c (Proc.devRef .tc main_v6) = Cert.ReferenceIdeal.ReadP.val_main_v6 (F := F) (m ((c : Thread nD τ).loc main_arg1)) := by
  dsimp only [W1]
  after_results_simp
  rfl

/-- After the first stretch: the in-degree of every node, a one added up at each edge's destination. -/
theorem degrees1 : W1 m ρ c (Proc.devRef .tc main_v10) = Cert.ReferenceIdeal.ReadP.val_main_v11 (F := F) (m ((c : Thread nD τ).loc main_arg1)) := by
  dsimp only [W1]
  after_results_simp
  rfl

/-- After the first stretch: which nodes have positive in-degree. -/
theorem positive1 : W1 m ρ c (Proc.devRef .tc main_v12) = Cert.ReferenceIdeal.ReadP.val_main_v13 (F := F) (m ((c : Thread nD τ).loc main_arg1)) := by
  dsimp only [W1]
  after_results_simp
  rfl

/-- The same comparison, computed a second time. -/
theorem positive1' : W1 m ρ c (Proc.devRef .tc main_v14) = Cert.ReferenceIdeal.ReadP.val_main_v15 (F := F) (m ((c : Thread nD τ).loc main_arg1)) := by
  dsimp only [W1]
  after_results_simp
  rfl

/-- The literal one that stands in for a zero in-degree under the square root. -/
theorem one1 : W1 m ρ c (Proc.devRef .tc main_cst_3) = Cert.ReferenceIdeal.ReadP.val_main_cst_3 (F := F) := by
  dsimp only [W1]
  after_results_simp
  rfl

/-! ### The later stretches of the preamble keep sources and destinations and build the weights -/

/-- Buffers of the first stretch that later stretches of the preamble read, carried forward. -/
theorem positive3 : W3 m ρ c (Proc.devRef .tc main_v12) = Cert.ReferenceIdeal.ReadP.val_main_v13 (F := F) (m ((c : Thread nD τ).loc main_arg1)) := by
  refine Eq.trans ?_ (positive1 m ρ c)
  dsimp only [W3, W2]
  generalize W1 m ρ c = V1
  after_results_simp

theorem sources4 : W4 m ρ c (Proc.devRef .tc main_v5) = Cert.ReferenceIdeal.ReadP.val_main_v5 (F := F) (m ((c : Thread nD τ).loc main_arg1)) := by
  refine Eq.trans ?_ (sources1 m ρ c)
  dsimp only [W4, W3, W2]
  generalize W1 m ρ c = V1
  after_results_simp

theorem destinations4 : W4 m ρ c (Proc.devRef .tc main_v6) = Cert.ReferenceIdeal.ReadP.val_main_v6 (F := F) (m ((c : Thread nD τ).loc main_arg1)) := by
  refine Eq.trans ?_ (destinations1 m ρ c)
  dsimp only [W4, W3, W2]
  generalize W1 m ρ c = V1
  after_results_simp

/-- The in-degree, with one in place of a zero (so that the square root's reciprocal is defined there). -/
theorem safeDegree : W2 m ρ c (Proc.devRef .tc main_v15) = Cert.ReferenceIdeal.ReadP.val_main_v16 (F := F) (m ((c : Thread nD τ).loc main_arg1)) := by
  have h10 := degrees1 m ρ c
  have h14 := positive1' m ρ c
  have hc := one1 m ρ c
  dsimp only [W2]
  generalize W1 m ρ c = V1 at h10 h14 hc ⊢
  after_results_simp
  rw [h10, h14, hc]
  simp only [ofBuf_toBuf]
  unfold Cert.ReferenceIdeal.ReadP.val_main_v16 Cert.ReferenceIdeal.ReadP.val_main_call0_v1 Cert.ReferenceIdeal.ReadP.val_main_call0_v0
  generalize Cert.ReferenceIdeal.ReadP.val_main_v15 (F := F) (m ((c : Thread nD τ).loc main_arg1)) = a
  generalize Cert.ReferenceIdeal.ReadP.val_main_v11 (F := F) (m ((c : Thread nD τ).loc main_arg1)) = b
  generalize Cert.ReferenceIdeal.ReadP.val_main_cst_3 (F := F) = k
  rfl

/-- One over the square root of that. -/
theorem invSqrt : W3 m ρ c (Proc.devRef .tc main_v18) = Cert.ReferenceIdeal.ReadP.val_main_v19 (F := F) (m ((c : Thread nD τ).loc main_arg1)) := by
  have h15 := safeDegree m ρ c
  dsimp only [W3]
  generalize W2 m ρ c = V2 at h15 ⊢
  after_results_simp
  rw [h15]
  rfl

/-- The zero that replaces it where the in-degree is zero. -/
theorem zero3 : W3 m ρ c (Proc.devRef .tc main_cst_5) = Cert.ReferenceIdeal.ReadP.val_main_cst_5 (F := F) := by
  dsimp only [W3]
  generalize W2 m ρ c = V2
  after_results_simp
  rfl

/-- `d^(-1/2)` per node, zero where the in-degree is zero. -/
theorem invSqrtDegree : W4 m ρ c (Proc.devRef .tc main_v19) = Cert.ReferenceIdeal.ReadP.val_main_v20 (F := F) (m ((c : Thread nD τ).loc main_arg1)) := by
  have h12 := positive3 m ρ c
  have h18 := invSqrt m ρ c
  have hc := zero3 m ρ c
  dsimp only [W4]
  generalize W3 m ρ c = V3 at h12 h18 hc ⊢
  after_results_simp
  rw [h12, h18, hc]
  simp only [ofBuf_toBuf]
  unfold Cert.ReferenceIdeal.ReadP.val_main_v20 Cert.ReferenceIdeal.ReadP.val_main_call1_v1 Cert.ReferenceIdeal.ReadP.val_main_call1_v0
  generalize Cert.ReferenceIdeal.ReadP.val_main_v13 (F := F) (m ((c : Thread nD τ).loc main_arg1)) = a
  generalize Cert.ReferenceIdeal.ReadP.val_main_v19 (F := F) (m ((c : Thread nD τ).loc main_arg1)) = b
  generalize Cert.ReferenceIdeal.ReadP.val_main_cst_5 (F := F) = k
  rfl

/-- The edge sources, as the reference builds them. -/
theorem sources : W5 m ρ c (Proc.devRef .tc main_v5) = Cert.ReferenceIdeal.ReadP.val_main_v5 (F := F) (m ((c : Thread nD τ).loc main_arg1)) := by
  refine Eq.trans ?_ (sources4 m ρ c)
  dsimp only [W5]
  generalize W4 m ρ c = V4
  after_results_simp

/-- The edge destinations, as the reference builds them. -/
theorem destinations : W5 m ρ c (Proc.devRef .tc main_v6) = Cert.ReferenceIdeal.ReadP.val_main_v6 (F := F) (m ((c : Thread nD τ).loc main_arg1)) := by
  refine Eq.trans ?_ (destinations4 m ρ c)
  dsimp only [W5]
  generalize W4 m ρ c = V4
  after_results_simp

/-- The edge weights `d(src)^(-1/2) * d(dst)^(-1/2)`, as the reference builds them: `d^(-1/2)` gathered at the sources
    and at the destinations (a negative index counted from the end), and multiplied. -/
theorem weights : W5 m ρ c (Proc.devRef .tc main_v34) = Cert.ReferenceIdeal.ReadP.val_main_v35 (F := F) (m ((c : Thread nD τ).loc main_arg1)) := by
  have h5 := sources4 m ρ c
  have h6 := destinations4 m ρ c
  have h19 := invSqrtDegree m ρ c
  dsimp only [W5]
  generalize W4 m ρ c = V4 at h5 h6 h19 ⊢
  after_results_simp
  rw [h5, h6, h19]
  rfl

/-- `%36` is a row of the literal zero. -/
theorem zero36_const : W5 m ρ c (Proc.devRef .tc main_v36) = fun i => shapeCast S1x64 (broadcastInDim S64 ![] bcast_S_S64 (constant (F := F) S_ .f32 0x00000000#32)) shapeCasts_S64_S1x64 i := by
  dsimp only [W5]
  after_results_simp
  rfl

/-- The stretch gathers rows of `%37` at the edge sources, scales them by the edge weights and adds them up at the edge
    destinations. -/
theorem stretch1 : W7 m ρ c (Proc.devRef .tc main_v50)
    = aggregate (W6 m ρ c (Proc.devRef .tc main_v5)) (W6 m ρ c (Proc.devRef .tc main_v6)) (W6 m ρ c (Proc.devRef .tc main_v34)) (W6 m ρ c (Proc.devRef .tc main_v37)) := by
  dsimp only [W7]
  after_results_simp
  rfl

/-- `%51` is the bias vector laid out as one row. -/
theorem row51 (q : Fin 64) : (W7 m ρ c (Proc.devRef .tc main_v51) : S1x64.Idx → Elt F .f32) (ix2 0 q) = (W6 m ρ c (Proc.devRef .tc main_arg3) : S64.Idx → Elt F .f32) (ix1 q) := by
  have e : W7 m ρ c (Proc.devRef .tc main_v51) = fun i => shapeCast S1x64 (W6 m ρ c (Proc.devRef .tc main_arg3)) shapeCasts_S64_S1x64 i := by
    dsimp only [W7]
    after_results_simp
    rfl
  rw [e]
  exact shapeCast_apply _ shapeCasts_S64_S1x64 (ix2 0 q) (ix1 q) (by
    rw [Shape.rowMajor_val_one, Shape.rowMajor_val_two]
    show q.val = 0 * 64 + q.val
    omega)

/-- `%54` is a row of the literal zero. -/
theorem zero54_const : W9 m ρ c (Proc.devRef .tc main_v54) = fun i => shapeCast S1x64 (broadcastInDim S64 ![] bcast_S_S64 (constant (F := F) S_ .f32 0x00000000#32)) shapeCasts_S64_S1x64 i := by
  dsimp only [W9]
  after_results_simp
  rfl

/-- The stretch gathers rows of `%55` at the edge sources, scales them by the edge weights and adds them up at the edge
    destinations. -/
theorem stretch3 : W11 m ρ c (Proc.devRef .tc main_v68)
    = aggregate (W10 m ρ c (Proc.devRef .tc main_v5)) (W10 m ρ c (Proc.devRef .tc main_v6)) (W10 m ρ c (Proc.devRef .tc main_v34)) (W10 m ρ c (Proc.devRef .tc main_v55)) := by
  dsimp only [W11]
  after_results_simp
  rfl

/-- `%69` is the bias vector laid out as one row. -/
theorem row69 (q : Fin 64) : (W11 m ρ c (Proc.devRef .tc main_v69) : S1x64.Idx → Elt F .f32) (ix2 0 q) = (W10 m ρ c (Proc.devRef .tc main_arg5) : S64.Idx → Elt F .f32) (ix1 q) := by
  have e : W11 m ρ c (Proc.devRef .tc main_v69) = fun i => shapeCast S1x64 (W10 m ρ c (Proc.devRef .tc main_arg5)) shapeCasts_S64_S1x64 i := by
    dsimp only [W11]
    after_results_simp
    rfl
  rw [e]
  exact shapeCast_apply _ shapeCasts_S64_S1x64 (ix2 0 q) (ix1 q) (by
    rw [Shape.rowMajor_val_one, Shape.rowMajor_val_two]
    show q.val = 0 * 64 + q.val
    omega)

/-- `%72` is a row of the literal zero. -/
theorem zero72_const : W13 m ρ c (Proc.devRef .tc main_v72) = fun i => shapeCast S1x64 (broadcastInDim S64 ![] bcast_S_S64 (constant (F := F) S_ .f32 0x00000000#32)) shapeCasts_S64_S1x64 i := by
  dsimp only [W13]
  after_results_simp
  rfl

/-- The stretch gathers rows of `%73` at the edge sources, scales them by the edge weights and adds them up at the edge
    destinations. -/
theorem stretch5 : W15 m ρ c (Proc.devRef .tc main_v86)
    = aggregate (W14 m ρ c (Proc.devRef .tc main_v5)) (W14 m ρ c (Proc.devRef .tc main_v6)) (W14 m ρ c (Proc.devRef .tc main_v34)) (W14 m ρ c (Proc.devRef .tc main_v73)) := by
  dsimp only [W15]
  after_results_simp
  rfl

/-- `%87` is the bias vector laid out as one row. -/
theorem row87 (q : Fin 64) : (W15 m ρ c (Proc.devRef .tc main_v87) : S1x64.Idx → Elt F .f32) (ix2 0 q) = (W14 m ρ c (Proc.devRef .tc main_arg7) : S64.Idx → Elt F .f32) (ix1 q) := by
  have e : W15 m ρ c (Proc.devRef .tc main_v87) = fun i => shapeCast S1x64 (W14 m ρ c (Proc.devRef .tc main_arg7)) shapeCasts_S64_S1x64 i := by
    dsimp only [W15]
    after_results_simp
    rfl
  rw [e]
  exact shapeCast_apply _ shapeCasts_S64_S1x64 (ix2 0 q) (ix1 q) (by
    rw [Shape.rowMajor_val_one, Shape.rowMajor_val_two]
    show q.val = 0 * 64 + q.val
    omega)

/-- `%89` is the bias vector laid out as one row. -/
theorem row89 (q : Fin 64) : (W17 m ρ c (Proc.devRef .tc main_v89) : S1x64.Idx → Elt F .f32) (ix2 0 q) = (W16 m ρ c (Proc.devRef .tc main_arg9) : S64.Idx → Elt F .f32) (ix1 q) := by
  have e : W17 m ρ c (Proc.devRef .tc main_v89) = fun i => shapeCast S1x64 (W16 m ρ c (Proc.devRef .tc main_arg9)) shapeCasts_S64_S1x64 i := by
    dsimp only [W17]
    after_results_simp
    rfl
  rw [e]
  exact shapeCast_apply _ shapeCasts_S64_S1x64 (ix2 0 q) (ix1 q) (by
    rw [Shape.rowMajor_val_one, Shape.rowMajor_val_two]
    show q.val = 0 * 64 + q.val
    omega)

/-- `%91` is the bias vector laid out as one row. -/
theorem row91 (q : Fin 1) : (W19 m ρ c (Proc.devRef .tc main_v91) : S1x1.Idx → Elt F .f32) (ix2 0 q) = (W18 m ρ c (Proc.devRef .tc main_arg11) : S1.Idx → Elt F .f32) (ix1 q) := by
  have e : W19 m ρ c (Proc.devRef .tc main_v91) = fun i => shapeCast S1x1 (W18 m ρ c (Proc.devRef .tc main_arg11)) shapeCasts_S1_S1x1 i := by
    dsimp only [W19]
    after_results_simp
    rfl
  rw [e]
  exact shapeCast_apply _ shapeCasts_S1_S1x1 (ix2 0 q) (ix1 q) (by
    rw [Shape.rowMajor_val_one, Shape.rowMajor_val_two]
    show q.val = 0 * 1 + q.val
    omega)

section AtIdeal

variable (m : (ℓ : Loc nD τ sig) → Buf (Elt Ideal) ℓ) (ρ : Dev nD → PrngReg) (c : Dev nD)

/-- Over the extended reals the literal zero is the number zero: `%36` is a row of zeros. -/
theorem zero36 (y : S1x64.Idx) : (W5 m ρ c (Proc.devRef .tc main_v36) : S1x64.Idx → EReal) y = (0 : EReal) := by
  rw [zero36_const m ρ c]
  show Ideal.ofBits .f32 0x00000000#32 = 0
  exact Ideal.ofBits_zero_f32

/-- `%54` is a row of zeros. -/
theorem zero54 (y : S1x64.Idx) : (W9 m ρ c (Proc.devRef .tc main_v54) : S1x64.Idx → EReal) y = (0 : EReal) := by
  rw [zero54_const m ρ c]
  show Ideal.ofBits .f32 0x00000000#32 = 0
  exact Ideal.ofBits_zero_f32

/-- `%72` is a row of zeros. -/
theorem zero72 (y : S1x64.Idx) : (W13 m ρ c (Proc.devRef .tc main_v72) : S1x64.Idx → EReal) y = (0 : EReal) := by
  rw [zero72_const m ρ c]
  show Ideal.ofBits .f32 0x00000000#32 = 0
  exact Ideal.ofBits_zero_f32

end AtIdeal

end Cert.KernelIdeal.HostVals

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«166200_j68444598829350_1_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.RefStages.lean ====
/-
  The reference, stage by stage, as the entrywise functions of the layers.

  The reference computes each layer as a matrix product, a gather / scale / scatter-add over the edge list, the
  bias added to every row and a clamp at zero; then two dense layers, the last through `1 / (1 + exp (-x))`.
  Read entry by entry: a matrix product is the sum over the contracted axis (so it is the affine map with a zero
  row vector); bias-and-clamp is `max (a + b) 0`; and `1 / (1 + exp (-x))` is the logistic function, the literal
  `1.0` being the number one.
-/
import proofs.«166200_j68444598829350_1_alg».proof.Proof.ReadP
import proofs.«166200_j68444598829350_1_alg».proof.Proof.LibAffineBodies

noncomputable section

open scoped BigOperators
open Idealize.ShloMosaic Idealize.ShloMosaic.ValueIdx

namespace Cert.ReferenceIdeal.Stages

open Cert.ReferenceIdeal Cert.ReferenceIdeal.ReadP

/-- The literal `1.0` denotes the number one. -/
theorem ofBits_one : Ideal.ofBits .f32 0x3F800000#32 = 1 := by
  simp [Ideal.ofBits, Ideal.ieee, -EReal.coe_mul]; norm_num

variable (x0 : (⟨S100000x3, .f32⟩ : BufTy).Contents (Elt Ideal))
  (x1 : (⟨S2x1600000, .i32⟩ : BufTy).Contents (Elt Ideal))
  (x2 : (⟨S3x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))
  (x6 : (⟨S64x64, .f32⟩ : BufTy).Contents (Elt Ideal))
  (x7 : (⟨S64, .f32⟩ : BufTy).Contents (Elt Ideal))
  (x8 : (⟨S64x64, .f32⟩ : BufTy).Contents (Elt Ideal))
  (x9 : (⟨S64, .f32⟩ : BufTy).Contents (Elt Ideal))
  (x10 : (⟨S64x1, .f32⟩ : BufTy).Contents (Elt Ideal))
  (x11 : (⟨S1, .f32⟩ : BufTy).Contents (Elt Ideal))

/-- The reference's matrix product `%7` is the product with a zero row vector added. -/
theorem dot_v7 (Z : Gcn.Mat 1 64) (hZ : ∀ y, Z y = 0) :
    Gcn.affine (x0) x2 Z = val_main_v7 (F := Ideal) x0 x2 := by
  funext i
  obtain ⟨p, q, rfl⟩ : ∃ (p : Fin 100000) (q : Fin 64), i = ix2 p q := ⟨i 0, i 1, eq_ix2 i⟩
  rw [val_main_v7_apply]
  show (∑ k : Fin 3, (x0) (ix2 p k) * x2 (ix2 k q)) + Z (ix2 0 q) = _
  rw [hZ, add_zero]
  refine Finset.sum_congr rfl fun k _ => ?_
  have el : ix2 p k = lidx_main_v7 (ix2 p q) k := funext fun a => by match a with | ⟨0, _⟩ => rfl | ⟨1, _⟩ => rfl
  have er : ix2 k q = ridx_main_v7 (ix2 p q) k := funext fun a => by match a with | ⟨0, _⟩ => rfl | ⟨1, _⟩ => rfl
  rw [el, er]

/-- The reference's layer output `%52`: the aggregate plus the bias on every row, clamped at zero. -/
theorem relu_v52 (B : Gcn.Mat 1 64) (hB : ∀ q : Fin 64, B (ix2 0 q) = x3 (ix1 q)) :
    Gcn.biasRelu (val_main_v48 (F := Ideal) x0 x1 x2) B = val_main_v52 (F := Ideal) x0 x1 x2 x3 := by
  funext i
  obtain ⟨p, q, rfl⟩ : ∃ (p : Fin 100000) (q : Fin 64), i = ix2 p q := ⟨i 0, i 1, eq_ix2 i⟩
  rw [val_main_v52_apply, val_main_v51_apply, val_main_v50_apply, val_main_v49_apply, val_main_call2_v0_apply, val_main_call2_cst_apply]
  show max (val_main_v48 (F := Ideal) x0 x1 x2 (ix2 p q) + B (ix2 0 q)) 0
    = max (val_main_v48 (F := Ideal) x0 x1 x2 (ix2 p q) + x3 (idx_main_v49 (idx_main_v50 (ix2 p q)))) (Ideal.ofBits .f32 0x00000000#32)
  have e : ix1 q = idx_main_v49 (idx_main_v50 (ix2 p q)) := funext fun a => by match a with | ⟨0, _⟩ => rfl
  rw [Ideal.ofBits_zero_f32, hB, e]

/-- The reference's matrix product `%56` is the product with a zero row vector added. -/
theorem dot_v56 (Z : Gcn.Mat 1 64) (hZ : ∀ y, Z y = 0) :
    Gcn.affine (val_main_v52 (F := Ideal) x0 x1 x2 x3) x4 Z = val_main_v56 (F := Ideal) x0 x1 x2 x3 x4 := by
  funext i
  obtain ⟨p, q, rfl⟩ : ∃ (p : Fin 100000) (q : Fin 64), i = ix2 p q := ⟨i 0, i 1, eq_ix2 i⟩
  rw [val_main_v56_apply]
  show (∑ k : Fin 64, (val_main_v52 (F := Ideal) x0 x1 x2 x3) (ix2 p k) * x4 (ix2 k q)) + Z (ix2 0 q) = _
  rw [hZ, add_zero]
  refine Finset.sum_congr rfl fun k _ => ?_
  have el : ix2 p k = lidx_main_v56 (ix2 p q) k := funext fun a => by match a with | ⟨0, _⟩ => rfl | ⟨1, _⟩ => rfl
  have er : ix2 k q = ridx_main_v56 (ix2 p q) k := funext fun a => by match a with | ⟨0, _⟩ => rfl | ⟨1, _⟩ => rfl
  rw [el, er]

/-- The reference's layer output `%101`: the aggregate plus the bias on every row, clamped at zero. -/
theorem relu_v101 (B : Gcn.Mat 1 64) (hB : ∀ q : Fin 64, B (ix2 0 q) = x5 (ix1 q)) :
    Gcn.biasRelu (val_main_v97 (F := Ideal) x0 x1 x2 x3 x4) B = val_main_v101 (F := Ideal) x0 x1 x2 x3 x4 x5 := by
  funext i
  obtain ⟨p, q, rfl⟩ : ∃ (p : Fin 100000) (q : Fin 64), i = ix2 p q := ⟨i 0, i 1, eq_ix2 i⟩
  rw [val_main_v101_apply, val_main_v100_apply, val_main_v99_apply, val_main_v98_apply, val_main_call5_v0_apply, val_main_call5_cst_apply]
  show max (val_main_v97 (F := Ideal) x0 x1 x2 x3 x4 (ix2 p q) + B (ix2 0 q)) 0
    = max (val_main_v97 (F := Ideal) x0 x1 x2 x3 x4 (ix2 p q) + x5 (idx_main_v98 (idx_main_v99 (ix2 p q)))) (Ideal.ofBits .f32 0x00000000#32)
  have e : ix1 q = idx_main_v98 (idx_main_v99 (ix2 p q)) := funext fun a => by match a with | ⟨0, _⟩ => rfl
  rw [Ideal.ofBits_zero_f32, hB, e]

/-- The reference's matrix product `%105` is the product with a zero row vector added. -/
theorem dot_v105 (Z : Gcn.Mat 1 64) (hZ : ∀ y, Z y = 0) :
    Gcn.affine (val_main_v101 (F := Ideal) x0 x1 x2 x3 x4 x5) x6 Z = val_main_v105 (F := Ideal) x0 x1 x2 x3 x4 x5 x6 := by
  funext i
  obtain ⟨p, q, rfl⟩ : ∃ (p : Fin 100000) (q : Fin 64), i = ix2 p q := ⟨i 0, i 1, eq_ix2 i⟩
  rw [val_main_v105_apply]
  show (∑ k : Fin 64, (val_main_v101 (F := Ideal) x0 x1 x2 x3 x4 x5) (ix2 p k) * x6 (ix2 k q)) + Z (ix2 0 q) = _
  rw [hZ, add_zero]
  refine Finset.sum_congr rfl fun k _ => ?_
  have el : ix2 p k = lidx_main_v105 (ix2 p q) k := funext fun a => by match a with | ⟨0, _⟩ => rfl | ⟨1, _⟩ => rfl
  have er : ix2 k q = ridx_main_v105 (ix2 p q) k := funext fun a => by match a with | ⟨0, _⟩ => rfl | ⟨1, _⟩ => rfl
  rw [el, er]

/-- The reference's layer output `%150`: the aggregate plus the bias on every row, clamped at zero. -/
theorem relu_v150 (B : Gcn.Mat 1 64) (hB : ∀ q : Fin 64, B (ix2 0 q) = x7 (ix1 q)) :
    Gcn.biasRelu (val_main_v146 (F := Ideal) x0 x1 x2 x3 x4 x5 x6) B = val_main_v150 (F := Ideal) x0 x1 x2 x3 x4 x5 x6 x7 := by
  funext i
  obtain ⟨p, q, rfl⟩ : ∃ (p : Fin 100000) (q : Fin 64), i = ix2 p q := ⟨i 0, i 1, eq_ix2 i⟩
  rw [val_main_v150_apply, val_main_v149_apply, val_main_v148_apply, val_main_v147_apply, val_main_call8_v0_apply, val_main_call8_cst_apply]
  show max (val_main_v146 (F := Ideal) x0 x1 x2 x3 x4 x5 x6 (ix2 p q) + B (ix2 0 q)) 0
    = max (val_main_v146 (F := Ideal) x0 x1 x2 x3 x4 x5 x6 (ix2 p q) + x7 (idx_main_v147 (idx_main_v148 (ix2 p q)))) (Ideal.ofBits .f32 0x00000000#32)
  have e : ix1 q = idx_main_v147 (idx_main_v148 (ix2 p q)) := funext fun a => by match a with | ⟨0, _⟩ => rfl
  rw [Ideal.ofBits_zero_f32, hB, e]

/-- The first dense layer `%155`: product, bias on every row, clamp at zero. -/
theorem dense_v155 (B : Gcn.Mat 1 64) (hB : ∀ q : Fin 64, B (ix2 0 q) = x9 (ix1 q)) :
    Gcn.affineRelu (val_main_v150 (F := Ideal) x0 x1 x2 x3 x4 x5 x6 x7) x8 B = val_main_v155 (F := Ideal) x0 x1 x2 x3 x4 x5 x6 x7 x8 x9 := by
  funext i
  obtain ⟨p, q, rfl⟩ : ∃ (p : Fin 100000) (q : Fin 64), i = ix2 p q := ⟨i 0, i 1, eq_ix2 i⟩
  rw [val_main_v155_apply, val_main_v154_apply, val_main_v151_apply, val_main_v153_apply, val_main_v152_apply, val_main_call9_v0_apply, val_main_call9_cst_apply]
  show max ((∑ k : Fin 64, (val_main_v150 (F := Ideal) x0 x1 x2 x3 x4 x5 x6 x7) (ix2 p k) * x8 (ix2 k q)) + B (ix2 0 q)) 0
    = max ((∑ k : Fin 64, (val_main_v150 (F := Ideal) x0 x1 x2 x3 x4 x5 x6 x7) (lidx_main_v151 (ix2 p q) k) * x8 (ridx_main_v151 (ix2 p q) k)) + x9 (idx_main_v152 (idx_main_v153 (ix2 p q)))) (Ideal.ofBits .f32 0x00000000#32)
  have e : ix1 q = idx_main_v152 (idx_main_v153 (ix2 p q)) := funext fun a => by match a with | ⟨0, _⟩ => rfl
  rw [Ideal.ofBits_zero_f32, hB, e]
  refine congrArg (fun s => max (s + x9 (idx_main_v152 (idx_main_v153 (ix2 p q)))) 0) (Finset.sum_congr rfl fun k _ => ?_)
  have el : ix2 p k = lidx_main_v151 (ix2 p q) k := funext fun a => by match a with | ⟨0, _⟩ => rfl | ⟨1, _⟩ => rfl
  have er : ix2 k q = ridx_main_v151 (ix2 p q) k := funext fun a => by match a with | ⟨0, _⟩ => rfl | ⟨1, _⟩ => rfl
  rw [el, er]

/-- The last dense layer `%165`: product, bias, and `1 / (1 + exp (-x))`, which is the logistic function. -/
theorem dense_v165 (B : Gcn.Mat 1 1) (hB : B (ix2 0 0) = x11 (ix1 0)) :
    Gcn.affineLogistic (val_main_v155 (F := Ideal) x0 x1 x2 x3 x4 x5 x6 x7 x8 x9) x10 B = val_main_v165 (F := Ideal) x0 x1 x2 x3 x4 x5 x6 x7 x8 x9 x10 x11 := by
  funext i
  obtain ⟨p, q, rfl⟩ : ∃ (p : Fin 100000) (q : Fin 1), i = ix2 p q := ⟨i 0, i 1, eq_ix2 i⟩
  obtain rfl : q = 0 := Subsingleton.elim _ _
  rw [val_main_v165_apply, val_main_v164_apply, val_main_cst_41_apply, val_main_v163_apply, val_main_v162_apply, val_main_cst_40_apply,
    val_main_v161_apply, val_main_v160_apply, val_main_v159_apply, val_main_v156_apply, val_main_v158_apply, val_main_v157_apply]
  simp only [Ideal.hostDivf_def, Ideal.addf_def, Ideal.hostUnary_exp_def, Ideal.hostNegf_def, Ideal.negf_def, Ideal.ofBits_def, ofBits_one]
  show Ideal.logistic ((∑ k : Fin 64, (val_main_v155 (F := Ideal) x0 x1 x2 x3 x4 x5 x6 x7 x8 x9) (ix2 p k) * x10 (ix2 k 0)) + B (ix2 0 0)) = _
  have e : ix1 (0 : Fin 1) = idx_main_v157 (idx_main_v158 (ix2 p 0)) := funext fun a => by match a with | ⟨0, _⟩ => rfl
  rw [hB, e]
  unfold Ideal.logistic
  refine congrArg (fun s => Ideal.div 1 (1 + Ideal.exp (-(s + x11 (idx_main_v157 (idx_main_v158 (ix2 p 0))))))) (Finset.sum_congr rfl fun k _ => ?_)
  have el : ix2 p k = lidx_main_v156 (ix2 p 0) k := funext fun a => by match a with | ⟨0, _⟩ => rfl | ⟨1, _⟩ => rfl
  have er : ix2 k (0 : Fin 1) = ridx_main_v156 (ix2 p 0) k := funext fun a => by match a with | ⟨0, _⟩ => rfl | ⟨1, _⟩ => rfl
  rw [el, er]

end Cert.ReferenceIdeal.Stages

end
-- ==== Proof.Region0.lean ====
/-
  Region 0 as one function of whole arrays.

  The region walks ten tiles of 10000 rows.  At tile `t` the body sees rows `10000 t … 10000 t + 9999` of its
  first operand, the whole weight matrix and the whole row vector, and leaves in the output tile
  the tile of rows times the weight matrix, plus the row vector.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are those of a plain matrix product. -/
theorem plain : PlainMatmul.IsPlain dot_S10000x3_S3x64_S10000x64_1_0_0_1_n_n := ⟨rfl, rfl, rfl, rfl, rfl, rfl⟩

/-- What the body leaves in the output tile, as a function of the tiles it loads. -/
theorem out_eq (x0 : Vec Ideal S10000x3 .f32) (x1 : Vec Ideal S3x64 .f32) (x2 : Vec Ideal S1x64 .f32) :
    out0_3 (F := Ideal) x0 x1 x2 = Gcn.affine x0 x1 x2 := by
  unfold out0_3
  rw [View.canon_unit_zero hz]
  unfold k0_pay1
  simp only [View.ld_unit_zero (S := S10000x3) hz, View.ld_unit_zero (S := S3x64) hz, View.ld_unit_zero (S := S1x64) hz, shapeCast_self]
  exact Gcn.linear_body plain x0 x1 x2 _ _ _

/-- The index maps over the grid: the row tiles move with the point, everything else stays at block 0. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The first operand's tile at point `t` is rows `10000 t …` of its array. -/
theorem read_x (c : Dev nD) (t : Fin cfg0.N) (y : S10000x3.Idx) (i : S100000x3.Idx)
    (h0 : (i 0).val = t.val * 10000 + (y 0).val) (h1 : (i 1).val = (y 1).val) :
    (iblk0 V c 0 t : Vec Ideal S10000x3 .f32) y = V c main_arg0 i := by
  obtain ⟨e0, e1, e2, e3, e4, e5, e6, e7⟩ := idx t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; omega
  | ⟨1, _⟩ => show win0_0.index t (1 : Fin 2) * 3 + 1 * (y 1).val = (i 1).val; omega

/-- The weight matrix's window is the whole matrix at every point. -/
theorem read_w (c : Dev nD) (t : Fin cfg0.N) (y : S3x64.Idx) :
    (iblk0 V c 1 t : Vec Ideal S3x64 .f32) y = V c main_arg2 y := by
  obtain ⟨e0, e1, e2, e3, e4, e5, e6, e7⟩ := idx t
  unfold iblk0
  rw [View.read_apply]
  show V c main_arg2 _ = V c main_arg2 _
  congr 1
  funext a
  apply Fin.ext
  match a with
  | ⟨0, _⟩ => show win0_1.index t (0 : Fin 2) * 3 + 1 * (y 0).val = (y 0).val; omega
  | ⟨1, _⟩ => show win0_1.index t (1 : Fin 2) * 64 + 1 * (y 1).val = (y 1).val; omega

/-- The row vector's window is the whole row vector at every point. -/
theorem read_b (c : Dev nD) (t : Fin cfg0.N) (y : S1x64.Idx) :
    (iblk0 V c 2 t : Vec Ideal S1x64 .f32) y = V c main_v36 y := by
  obtain ⟨e0, e1, e2, e3, e4, e5, e6, e7⟩ := idx t
  unfold iblk0
  rw [View.read_apply]
  show V c main_v36 _ = V c main_v36 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is tile `t` of the whole-array function. -/
theorem flushed (c : Dev nD) (t : Fin cfg0.N) :
    (dat0 V c).flushed 3 t = ((cfg0.win 3).blk t).view.read (Elt Ideal) (Gcn.affine (V c main_arg0) (V c main_arg2) (V c main_v36)) := by
  show (cfg0.win 3).cut (grid0.coords t) ((dat0 V c).after 3 t) = _
  rw [after0_3, out_eq]
  obtain ⟨e0, e1, e2, e3, e4, e5, e6, e7⟩ := idx t
  funext j
  rw [View.read_apply]
  show Gcn.affine (iblk0 V c 0 t) (iblk0 V c 1 t) (iblk0 V c 2 t) j = Gcn.affine (V c main_arg0) (V c main_arg2) (V c main_v36) (((cfg0.win 3).blk t).view.emb j)
  refine Gcn.affine_congr (X := (iblk0 V c 0 t : Vec Ideal S10000x3 .f32)) (W := (iblk0 V c 1 t : Vec Ideal S3x64 .f32))
    (B := (iblk0 V c 2 t : Vec Ideal S1x64 .f32)) (A := V c main_arg0) (W' := V c main_arg2) (B' := V c main_v36) j _
    (funext (read_w V c t)) (funext (read_b V c t)) (fun k => read_x V c t _ _ ?_ ?_) ?_
  · show (win0_3.index t (0 : Fin 2) * 10000 + 1 * (j 0).val) = t.val * 10000 + (j 0).val; omega
  · rfl
  · show (j 1).val = win0_3.index t (1 : Fin 2) * 64 + 1 * (j 1).val; omega

/-- An index of the output array is in point `t`'s tile iff each coordinate is in the tile's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v37).slice (win0_3.rect t)).set ↔ _
  rw [View.set_slice_whole, Rect.mem_set_unit]
  exact Iff.rfl

/-- The ten tiles cover the output array: row `p` is in tile `p / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [show cfg0.N = 10 from N_0]; omega⟩, rfl⟩
  obtain ⟨e0, e1, e2, e3, e4, e5, e6, e7⟩ := idx t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region: the whole-array function of the arrays the region was entered with. -/
theorem final (c : Dev nD) : (dat0 V c).arrAt 3 cfg0.N = Gcn.affine (V c main_arg0) (V c main_arg2) (V c main_v36) :=
  (dat0 V c).arrAt_eq_of_cover 3 (Gcn.affine (V c main_arg0) (V c main_arg2) (V c main_v36)) (fun t _ => flushed V c t) cover

end Cert.KernelIdeal.Region0

end
-- ==== Proof.Region1.lean ====
/-
  Region 1 as one function of whole arrays.

  The region walks ten tiles of 10000 rows.  At tile `t` the body sees rows `10000 t … 10000 t + 9999` of its
  first operand and the whole row vector, and leaves in the output tile
  the tile plus the row vector, clamped at zero from below.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile, as a function of the tiles it loads. -/
theorem out_eq (x0 : Vec Ideal S10000x64 .f32) (x1 : Vec Ideal S1x64 .f32) :
    out1_2 (F := Ideal) x0 x1 = Gcn.biasRelu x0 x1 := by
  unfold out1_2
  rw [View.canon_unit_zero hz]
  unfold k1_pay1
  simp only [View.ld_unit_zero (S := S10000x64) hz, View.ld_unit_zero (S := S1x64) hz, shapeCast_self]
  exact Gcn.bias_body x0 x1 _

/-- The index maps over the grid: the row tiles move with the point, everything else stays at block 0. -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The first operand's tile at point `t` is rows `10000 t …` of its array. -/
theorem read_x (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = V c main_v50 i := by
  obtain ⟨e0, e1, e2, e3, e4, e5⟩ := idx t
  unfold iblk1
  rw [View.read_apply]
  show V c main_v50 _ = V c main_v50 _
  congr 1
  funext a
  apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The row vector's window is the whole row vector at every point. -/
theorem read_b (c : Dev nD) (t : Fin cfg1.N) (y : S1x64.Idx) :
    (iblk1 V c 1 t : Vec Ideal S1x64 .f32) y = V c main_v51 y := by
  obtain ⟨e0, e1, e2, e3, e4, e5⟩ := idx t
  unfold iblk1
  rw [View.read_apply]
  show V c main_v51 _ = V c main_v51 _
  congr 1
  funext a
  apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- What point `t` writes back is tile `t` of the whole-array function. -/
theorem flushed (c : Dev nD) (t : Fin cfg1.N) :
    (dat1 V c).flushed 2 t = ((cfg1.win 2).blk t).view.read (Elt Ideal) (Gcn.biasRelu (V c main_v50) (V c main_v51)) := by
  show (cfg1.win 2).cut (grid1.coords t) ((dat1 V c).after 2 t) = _
  rw [after1_2, out_eq]
  obtain ⟨e0, e1, e2, e3, e4, e5⟩ := idx t
  funext j
  rw [View.read_apply]
  show Gcn.biasRelu (iblk1 V c 0 t) (iblk1 V c 1 t) j = Gcn.biasRelu (V c main_v50) (V c main_v51) (((cfg1.win 2).blk t).view.emb j)
  refine Gcn.biasRelu_congr (X := (iblk1 V c 0 t : Vec Ideal S10000x64 .f32))
    (B := (iblk1 V c 1 t : Vec Ideal S1x64 .f32)) (A := V c main_v50) (B' := V c main_v51) j _
    (funext (read_b V c t)) (read_x V c t _ _ ?_ ?_) ?_
  · show (win1_2.index t (0 : Fin 2) * 10000 + 1 * (j 0).val) = t.val * 10000 + (j 0).val; omega
  · show (win1_2.index t (1 : Fin 2) * 64 + 1 * (j 1).val) = (j 1).val; omega
  · show (j 1).val = win1_2.index t (1 : Fin 2) * 64 + 1 * (j 1).val; omega

/-- An index of the output array is in point `t`'s tile iff each coordinate is in the tile's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v52).slice (win1_2.rect t)).set ↔ _
  rw [View.set_slice_whole, Rect.mem_set_unit]
  exact Iff.rfl

/-- The ten tiles cover the output array: row `p` is in tile `p / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [show cfg1.N = 10 from N_1]; omega⟩, rfl⟩
  obtain ⟨e0, e1, e2, e3, e4, e5⟩ := idx t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the whole-array function of the arrays the region was entered with. -/
theorem final (c : Dev nD) : (dat1 V c).arrAt 2 cfg1.N = Gcn.biasRelu (V c main_v50) (V c main_v51) :=
  (dat1 V c).arrAt_eq_of_cover 2 (Gcn.biasRelu (V c main_v50) (V c main_v51)) (fun t _ => flushed V c t) cover

end Cert.KernelIdeal.Region1

end
-- ==== Proof.Region2.lean ====
/-
  Region 2 as one function of whole arrays.

  The region walks ten tiles of 10000 rows.  At tile `t` the body sees rows `10000 t … 10000 t + 9999` of its
  first operand, the whole weight matrix and the whole row vector, and leaves in the output tile
  the tile of rows times the weight matrix, plus the row vector.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are those of a plain matrix product. -/
theorem plain : PlainMatmul.IsPlain dot_S10000x64_S64x64_S10000x64_1_0_0_1_n_n := ⟨rfl, rfl, rfl, rfl, rfl, rfl⟩

/-- What the body leaves in the output tile, as a function of the tiles it loads. -/
theorem out_eq (x0 : Vec Ideal S10000x64 .f32) (x1 : Vec Ideal S64x64 .f32) (x2 : Vec Ideal S1x64 .f32) :
    out2_3 (F := Ideal) x0 x1 x2 = Gcn.affine x0 x1 x2 := by
  unfold out2_3
  rw [View.canon_unit_zero hz]
  unfold k2_pay1
  simp only [View.ld_unit_zero (S := S10000x64) hz, View.ld_unit_zero (S := S64x64) hz, View.ld_unit_zero (S := S1x64) hz, shapeCast_self]
  exact Gcn.linear_body plain x0 x1 x2 _ _ _

/-- The index maps over the grid: the row tiles move with the point, everything else stays at block 0. -/
theorem idx : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The first operand's tile at point `t` is rows `10000 t …` of its array. -/
theorem read_x (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = V c main_v52 i := by
  obtain ⟨e0, e1, e2, e3, e4, e5, e6, e7⟩ := idx t
  unfold iblk2
  rw [View.read_apply]
  show V c main_v52 _ = V c main_v52 _
  congr 1
  funext a
  apply Fin.ext
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weight matrix's window is the whole matrix at every point. -/
theorem read_w (c : Dev nD) (t : Fin cfg2.N) (y : S64x64.Idx) :
    (iblk2 V c 1 t : Vec Ideal S64x64 .f32) y = V c main_arg4 y := by
  obtain ⟨e0, e1, e2, e3, e4, e5, e6, e7⟩ := idx t
  unfold iblk2
  rw [View.read_apply]
  show V c main_arg4 _ = V c main_arg4 _
  congr 1
  funext a
  apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The row vector's window is the whole row vector at every point. -/
theorem read_b (c : Dev nD) (t : Fin cfg2.N) (y : S1x64.Idx) :
    (iblk2 V c 2 t : Vec Ideal S1x64 .f32) y = V c main_v54 y := by
  obtain ⟨e0, e1, e2, e3, e4, e5, e6, e7⟩ := idx t
  unfold iblk2
  rw [View.read_apply]
  show V c main_v54 _ = V c main_v54 _
  congr 1
  funext a
  apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- What point `t` writes back is tile `t` of the whole-array function. -/
theorem flushed (c : Dev nD) (t : Fin cfg2.N) :
    (dat2 V c).flushed 3 t = ((cfg2.win 3).blk t).view.read (Elt Ideal) (Gcn.affine (V c main_v52) (V c main_arg4) (V c main_v54)) := by
  show (cfg2.win 3).cut (grid2.coords t) ((dat2 V c).after 3 t) = _
  rw [after2_3, out_eq]
  obtain ⟨e0, e1, e2, e3, e4, e5, e6, e7⟩ := idx t
  funext j
  rw [View.read_apply]
  show Gcn.affine (iblk2 V c 0 t) (iblk2 V c 1 t) (iblk2 V c 2 t) j = Gcn.affine (V c main_v52) (V c main_arg4) (V c main_v54) (((cfg2.win 3).blk t).view.emb j)
  refine Gcn.affine_congr (X := (iblk2 V c 0 t : Vec Ideal S10000x64 .f32)) (W := (iblk2 V c 1 t : Vec Ideal S64x64 .f32))
    (B := (iblk2 V c 2 t : Vec Ideal S1x64 .f32)) (A := V c main_v52) (W' := V c main_arg4) (B' := V c main_v54) j _
    (funext (read_w V c t)) (funext (read_b V c t)) (fun k => read_x V c t _ _ ?_ ?_) ?_
  · show (win2_3.index t (0 : Fin 2) * 10000 + 1 * (j 0).val) = t.val * 10000 + (j 0).val; omega
  · rfl
  · show (j 1).val = win2_3.index t (1 : Fin 2) * 64 + 1 * (j 1).val; omega

/-- An index of the output array is in point `t`'s tile iff each coordinate is in the tile's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v55).slice (win2_3.rect t)).set ↔ _
  rw [View.set_slice_whole, Rect.mem_set_unit]
  exact Iff.rfl

/-- The ten tiles cover the output array: row `p` is in tile `p / 10000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, by rw [show cfg2.N = 10 from N_2]; omega⟩, rfl⟩
  obtain ⟨e0, e1, e2, e3, e4, e5, e6, e7⟩ := idx t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region: the whole-array function of the arrays the region was entered with. -/
theorem final (c : Dev nD) : (dat2 V c).arrAt 3 cfg2.N = Gcn.affine (V c main_v52) (V c main_arg4) (V c main_v54) :=
  (dat2 V c).arrAt_eq_of_cover 3 (Gcn.affine (V c main_v52) (V c main_arg4) (V c main_v54)) (fun t _ => flushed V c t) cover

end Cert.KernelIdeal.Region2

end
-- ==== Proof.Region3.lean ====
/-
  Region 3 as one function of whole arrays.

  The region walks ten tiles of 10000 rows.  At tile `t` the body sees rows `10000 t … 10000 t + 9999` of its
  first operand and the whole row vector, and leaves in the output tile
  the tile plus the row vector, clamped at zero from below.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile, as a function of the tiles it loads. -/
theorem out_eq (x0 : Vec Ideal S10000x64 .f32) (x1 : Vec Ideal S1x64 .f32) :
    out3_2 (F := Ideal) x0 x1 = Gcn.biasRelu x0 x1 := by
  unfold out3_2
  rw [View.canon_unit_zero hz]
  unfold k3_pay1
  simp only [View.ld_unit_zero (S := S10000x64) hz, View.ld_unit_zero (S := S1x64) hz, shapeCast_self]
  exact Gcn.bias_body x0 x1 _

/-- The index maps over the grid: the row tiles move with the point, everything else stays at block 0. -/
theorem idx : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The first operand's tile at point `t` is rows `10000 t …` of its array. -/
theorem read_x (c : Dev nD) (t : Fin cfg3.N) (y : S10000x64.Idx) (i : S100000x64.Idx)
    (h0 : (i 0).val = t.val * 10000 + (y 0).val) (h1 : (i 1).val = (y 1).val) :
    (iblk3 V c 0 t : Vec Ideal S10000x64 .f32) y = V c main_v68 i := by
  obtain ⟨e0, e1, e2, e3, e4, e5⟩ := idx t
  unfold iblk3
  rw [View.read_apply]
  show V c main_v68 _ = V c main_v68 _
  congr 1
  funext a
  apply Fin.ext
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The row vector's window is the whole row vector at every point. -/
theorem read_b (c : Dev nD) (t : Fin cfg3.N) (y : S1x64.Idx) :
    (iblk3 V c 1 t : Vec Ideal S1x64 .f32) y = V c main_v69 y := by
  obtain ⟨e0, e1, e2, e3, e4, e5⟩ := idx t
  unfold iblk3
  rw [View.read_apply]
  show V c main_v69 _ = V c main_v69 _
  congr 1
  funext a
  apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- What point `t` writes back is tile `t` of the whole-array function. -/
theorem flushed (c : Dev nD) (t : Fin cfg3.N) :
    (dat3 V c).flushed 2 t = ((cfg3.win 2).blk t).view.read (Elt Ideal) (Gcn.biasRelu (V c main_v68) (V c main_v69)) := by
  show (cfg3.win 2).cut (grid3.coords t) ((dat3 V c).after 2 t) = _
  rw [after3_2, out_eq]
  obtain ⟨e0, e1, e2, e3, e4, e5⟩ := idx t
  funext j
  rw [View.read_apply]
  show Gcn.biasRelu (iblk3 V c 0 t) (iblk3 V c 1 t) j = Gcn.biasRelu (V c main_v68) (V c main_v69) (((cfg3.win 2).blk t).view.emb j)
  refine Gcn.biasRelu_congr (X := (iblk3 V c 0 t : Vec Ideal S10000x64 .f32))
    (B := (iblk3 V c 1 t : Vec Ideal S1x64 .f32)) (A := V c main_v68) (B' := V c main_v69) j _
    (funext (read_b V c t)) (read_x V c t _ _ ?_ ?_) ?_
  · show (win3_2.index t (0 : Fin 2) * 10000 + 1 * (j 0).val) = t.val * 10000 + (j 0).val; omega
  · show (win3_2.index t (1 : Fin 2) * 64 + 1 * (j 1).val) = (j 1).val; omega
  · show (j 1).val = win3_2.index t (1 : Fin 2) * 64 + 1 * (j 1).val; omega

/-- An index of the output array is in point `t`'s tile iff each coordinate is in the tile's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v70).slice (win3_2.rect t)).set ↔ _
  rw [View.set_slice_whole, Rect.mem_set_unit]
  exact Iff.rfl

/-- The ten tiles cover the output array: row `p` is in tile `p / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by rw [show cfg3.N = 10 from N_3]; omega⟩, rfl⟩
  obtain ⟨e0, e1, e2, e3, e4, e5⟩ := idx t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the whole-array function of the arrays the region was entered with. -/
theorem final (c : Dev nD) : (dat3 V c).arrAt 2 cfg3.N = Gcn.biasRelu (V c main_v68) (V c main_v69) :=
  (dat3 V c).arrAt_eq_of_cover 2 (Gcn.biasRelu (V c main_v68) (V c main_v69)) (fun t _ => flushed V c t) cover

end Cert.KernelIdeal.Region3

end
-- ==== Proof.Region4.lean ====
/-
  Region 4 as one function of whole arrays.

  The region walks ten tiles of 10000 rows.  At tile `t` the body sees rows `10000 t … 10000 t + 9999` of its
  first operand, the whole weight matrix and the whole row vector, and leaves in the output tile
  the tile of rows times the weight matrix, plus the row vector.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are those of a plain matrix product. -/
theorem plain : PlainMatmul.IsPlain dot_S10000x64_S64x64_S10000x64_1_0_0_1_n_n := ⟨rfl, rfl, rfl, rfl, rfl, rfl⟩

/-- What the body leaves in the output tile, as a function of the tiles it loads. -/
theorem out_eq (x0 : Vec Ideal S10000x64 .f32) (x1 : Vec Ideal S64x64 .f32) (x2 : Vec Ideal S1x64 .f32) :
    out4_3 (F := Ideal) x0 x1 x2 = Gcn.affine x0 x1 x2 := by
  unfold out4_3
  rw [View.canon_unit_zero hz]
  unfold k4_pay1
  simp only [View.ld_unit_zero (S := S10000x64) hz, View.ld_unit_zero (S := S64x64) hz, View.ld_unit_zero (S := S1x64) hz, shapeCast_self]
  exact Gcn.linear_body plain x0 x1 x2 _ _ _

/-- The index maps over the grid: the row tiles move with the point, everything else stays at block 0. -/
theorem idx : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- The first operand's tile at point `t` is rows `10000 t …` of its array. -/
theorem read_x (c : Dev nD) (t : Fin cfg4.N) (y : S10000x64.Idx) (i : S100000x64.Idx)
    (h0 : (i 0).val = t.val * 10000 + (y 0).val) (h1 : (i 1).val = (y 1).val) :
    (iblk4 V c 0 t : Vec Ideal S10000x64 .f32) y = V c main_v70 i := by
  obtain ⟨e0, e1, e2, e3, e4, e5, e6, e7⟩ := idx t
  unfold iblk4
  rw [View.read_apply]
  show V c main_v70 _ = V c main_v70 _
  congr 1
  funext a
  apply Fin.ext
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- The weight matrix's window is the whole matrix at every point. -/
theorem read_w (c : Dev nD) (t : Fin cfg4.N) (y : S64x64.Idx) :
    (iblk4 V c 1 t : Vec Ideal S64x64 .f32) y = V c main_arg6 y := by
  obtain ⟨e0, e1, e2, e3, e4, e5, e6, e7⟩ := idx t
  unfold iblk4
  rw [View.read_apply]
  show V c main_arg6 _ = V c main_arg6 _
  congr 1
  funext a
  apply Fin.ext
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The row vector's window is the whole row vector at every point. -/
theorem read_b (c : Dev nD) (t : Fin cfg4.N) (y : S1x64.Idx) :
    (iblk4 V c 2 t : Vec Ideal S1x64 .f32) y = V c main_v72 y := by
  obtain ⟨e0, e1, e2, e3, e4, e5, e6, e7⟩ := idx t
  unfold iblk4
  rw [View.read_apply]
  show V c main_v72 _ = V c main_v72 _
  congr 1
  funext a
  apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- What point `t` writes back is tile `t` of the whole-array function. -/
theorem flushed (c : Dev nD) (t : Fin cfg4.N) :
    (dat4 V c).flushed 3 t = ((cfg4.win 3).blk t).view.read (Elt Ideal) (Gcn.affine (V c main_v70) (V c main_arg6) (V c main_v72)) := by
  show (cfg4.win 3).cut (grid4.coords t) ((dat4 V c).after 3 t) = _
  rw [after4_3, out_eq]
  obtain ⟨e0, e1, e2, e3, e4, e5, e6, e7⟩ := idx t
  funext j
  rw [View.read_apply]
  show Gcn.affine (iblk4 V c 0 t) (iblk4 V c 1 t) (iblk4 V c 2 t) j = Gcn.affine (V c main_v70) (V c main_arg6) (V c main_v72) (((cfg4.win 3).blk t).view.emb j)
  refine Gcn.affine_congr (X := (iblk4 V c 0 t : Vec Ideal S10000x64 .f32)) (W := (iblk4 V c 1 t : Vec Ideal S64x64 .f32))
    (B := (iblk4 V c 2 t : Vec Ideal S1x64 .f32)) (A := V c main_v70) (W' := V c main_arg6) (B' := V c main_v72) j _
    (funext (read_w V c t)) (funext (read_b V c t)) (fun k => read_x V c t _ _ ?_ ?_) ?_
  · show (win4_3.index t (0 : Fin 2) * 10000 + 1 * (j 0).val) = t.val * 10000 + (j 0).val; omega
  · rfl
  · show (j 1).val = win4_3.index t (1 : Fin 2) * 64 + 1 * (j 1).val; omega

/-- An index of the output array is in point `t`'s tile iff each coordinate is in the tile's range. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v73).slice (win4_3.rect t)).set ↔ _
  rw [View.set_slice_whole, Rect.mem_set_unit]
  exact Iff.rfl

/-- The ten tiles cover the output array: row `p` is in tile `p / 10000`. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 10000 := ⟨⟨(i 0).val / 10000, by rw [show cfg4.N = 10 from N_4]; omega⟩, rfl⟩
  obtain ⟨e0, e1, e2, e3, e4, e5, e6, e7⟩ := idx t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The output array after the region: the whole-array function of the arrays the region was entered with. -/
theorem final (c : Dev nD) : (dat4 V c).arrAt 3 cfg4.N = Gcn.affine (V c main_v70) (V c main_arg6) (V c main_v72) :=
  (dat4 V c).arrAt_eq_of_cover 3 (Gcn.affine (V c main_v70) (V c main_arg6) (V c main_v72)) (fun t _ => flushed V c t) cover

end Cert.KernelIdeal.Region4

end
-- ==== Proof.Region5.lean ====
/-
  Region 5 as one function of whole arrays.

  The region walks ten tiles of 10000 rows.  At tile `t` the body sees rows `10000 t … 10000 t + 9999` of its
  first operand and the whole row vector, and leaves in the output tile
  the tile plus the row vector, clamped at zero from below.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile, as a function of the tiles it loads. -/
theorem out_eq (x0 : Vec Ideal S10000x64 .f32) (x1 : Vec Ideal S1x64 .f32) :
    out5_2 (F := Ideal) x0 x1 = Gcn.biasRelu x0 x1 := by
  unfold out5_2
  rw [View.canon_unit_zero hz]
  unfold k5_pay1
  simp only [View.ld_unit_zero (S := S10000x64) hz, View.ld_unit_zero (S := S1x64) hz, shapeCast_self]
  exact Gcn.bias_body x0 x1 _

/-- The index maps over the grid: the row tiles move with the point, everything else stays at block 0. -/
theorem idx : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- The first operand's tile at point `t` is rows `10000 t …` of its array. -/
theorem read_x (c : Dev nD) (t : Fin cfg5.N) (y : S10000x64.Idx) (i : S100000x64.Idx)
    (h0 : (i 0).val = t.val * 10000 + (y 0).val) (h1 : (i 1).val = (y 1).val) :
    (iblk5 V c 0 t : Vec Ideal S10000x64 .f32) y = V c main_v86 i := by
  obtain ⟨e0, e1, e2, e3, e4, e5⟩ := idx t
  unfold iblk5
  rw [View.read_apply]
  show V c main_v86 _ = V c main_v86 _
  congr 1
  funext a
  apply Fin.ext
  match a with
  | ⟨0, _⟩ => show win5_0.index t (0 : Fin 2) * 10000 + 1 * (y 0).val = (i 0).val; omega
  | ⟨1, _⟩ => show win5_0.index t (1 : Fin 2) * 64 + 1 * (y 1).val = (i 1).val; omega

/-- The row vector's window is the whole row vector at every point. -/
theorem read_b (c : Dev nD) (t : Fin cfg5.N) (y : S1x64.Idx) :
    (iblk5 V c 1 t : Vec Ideal S1x64 .f32) y = V c main_v87 y := by
  obtain ⟨e0, e1, e2, e3, e4, e5⟩ := idx t
  unfold iblk5
  rw [View.read_apply]
  show V c main_v87 _ = V c main_v87 _
  congr 1
  funext a
  apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- What point `t` writes back is tile `t` of the whole-array function. -/
theorem flushed (c : Dev nD) (t : Fin cfg5.N) :
    (dat5 V c).flushed 2 t = ((cfg5.win 2).blk t).view.read (Elt Ideal) (Gcn.biasRelu (V c main_v86) (V c main_v87)) := by
  show (cfg5.win 2).cut (grid5.coords t) ((dat5 V c).after 2 t) = _
  rw [after5_2, out_eq]
  obtain ⟨e0, e1, e2, e3, e4, e5⟩ := idx t
  funext j
  rw [View.read_apply]
  show Gcn.biasRelu (iblk5 V c 0 t) (iblk5 V c 1 t) j = Gcn.biasRelu (V c main_v86) (V c main_v87) (((cfg5.win 2).blk t).view.emb j)
  refine Gcn.biasRelu_congr (X := (iblk5 V c 0 t : Vec Ideal S10000x64 .f32))
    (B := (iblk5 V c 1 t : Vec Ideal S1x64 .f32)) (A := V c main_v86) (B' := V c main_v87) j _
    (funext (read_b V c t)) (read_x V c t _ _ ?_ ?_) ?_
  · show (win5_2.index t (0 : Fin 2) * 10000 + 1 * (j 0).val) = t.val * 10000 + (j 0).val; omega
  · show (win5_2.index t (1 : Fin 2) * 64 + 1 * (j 1).val) = (j 1).val; omega
  · show (j 1).val = win5_2.index t (1 : Fin 2) * 64 + 1 * (j 1).val; omega

/-- An index of the output array is in point `t`'s tile iff each coordinate is in the tile's range. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v88).slice (win5_2.rect t)).set ↔ _
  rw [View.set_slice_whole, Rect.mem_set_unit]
  exact Iff.rfl

/-- The ten tiles cover the output array: row `p` is in tile `p / 10000`. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 10000 := ⟨⟨(i 0).val / 10000, by rw [show cfg5.N = 10 from N_5]; omega⟩, rfl⟩
  obtain ⟨e0, e1, e2, e3, e4, e5⟩ := idx t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region: the whole-array function of the arrays the region was entered with. -/
theorem final (c : Dev nD) : (dat5 V c).arrAt 2 cfg5.N = Gcn.biasRelu (V c main_v86) (V c main_v87) :=
  (dat5 V c).arrAt_eq_of_cover 2 (Gcn.biasRelu (V c main_v86) (V c main_v87)) (fun t _ => flushed V c t) cover

end Cert.KernelIdeal.Region5

end
-- ==== Proof.Region6.lean ====
/-
  Region 6 as one function of whole arrays.

  The region walks ten tiles of 10000 rows.  At tile `t` the body sees rows `10000 t … 10000 t + 9999` of its
  first operand, the whole weight matrix and the whole row vector, and leaves in the output tile
  the tile of rows times the weight matrix, plus the row vector, clamped at zero from below.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are those of a plain matrix product. -/
theorem plain : PlainMatmul.IsPlain dot_S10000x64_S64x64_S10000x64_1_0_0_1_n_n := ⟨rfl, rfl, rfl, rfl, rfl, rfl⟩

/-- What the body leaves in the output tile, as a function of the tiles it loads. -/
theorem out_eq (x0 : Vec Ideal S10000x64 .f32) (x1 : Vec Ideal S64x64 .f32) (x2 : Vec Ideal S1x64 .f32) :
    out6_3 (F := Ideal) x0 x1 x2 = Gcn.affineRelu x0 x1 x2 := by
  unfold out6_3
  rw [View.canon_unit_zero hz]
  unfold k6_pay1
  simp only [View.ld_unit_zero (S := S10000x64) hz, View.ld_unit_zero (S := S64x64) hz, View.ld_unit_zero (S := S1x64) hz, shapeCast_self]
  exact Gcn.linear_relu_body plain x0 x1 x2 _ _ _

/-- The index maps over the grid: the row tiles move with the point, everything else stays at block 0. -/
theorem idx : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- The first operand's tile at point `t` is rows `10000 t …` of its array. -/
theorem read_x (c : Dev nD) (t : Fin cfg6.N) (y : S10000x64.Idx) (i : S100000x64.Idx)
    (h0 : (i 0).val = t.val * 10000 + (y 0).val) (h1 : (i 1).val = (y 1).val) :
    (iblk6 V c 0 t : Vec Ideal S10000x64 .f32) y = V c main_v88 i := by
  obtain ⟨e0, e1, e2, e3, e4, e5, e6, e7⟩ := idx t
  unfold iblk6
  rw [View.read_apply]
  show V c main_v88 _ = V c main_v88 _
  congr 1
  funext a
  apply Fin.ext
  match a with
  | ⟨0, _⟩ => show win6_0.index t (0 : Fin 2) * 10000 + 1 * (y 0).val = (i 0).val; omega
  | ⟨1, _⟩ => show win6_0.index t (1 : Fin 2) * 64 + 1 * (y 1).val = (i 1).val; omega

/-- The weight matrix's window is the whole matrix at every point. -/
theorem read_w (c : Dev nD) (t : Fin cfg6.N) (y : S64x64.Idx) :
    (iblk6 V c 1 t : Vec Ideal S64x64 .f32) y = V c main_arg8 y := by
  obtain ⟨e0, e1, e2, e3, e4, e5, e6, e7⟩ := idx t
  unfold iblk6
  rw [View.read_apply]
  show V c main_arg8 _ = V c main_arg8 _
  congr 1
  funext a
  apply Fin.ext
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- The row vector's window is the whole row vector at every point. -/
theorem read_b (c : Dev nD) (t : Fin cfg6.N) (y : S1x64.Idx) :
    (iblk6 V c 2 t : Vec Ideal S1x64 .f32) y = V c main_v89 y := by
  obtain ⟨e0, e1, e2, e3, e4, e5, e6, e7⟩ := idx t
  unfold iblk6
  rw [View.read_apply]
  show V c main_v89 _ = V c main_v89 _
  congr 1
  funext a
  apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- What point `t` writes back is tile `t` of the whole-array function. -/
theorem flushed (c : Dev nD) (t : Fin cfg6.N) :
    (dat6 V c).flushed 3 t = ((cfg6.win 3).blk t).view.read (Elt Ideal) (Gcn.affineRelu (V c main_v88) (V c main_arg8) (V c main_v89)) := by
  show (cfg6.win 3).cut (grid6.coords t) ((dat6 V c).after 3 t) = _
  rw [after6_3, out_eq]
  obtain ⟨e0, e1, e2, e3, e4, e5, e6, e7⟩ := idx t
  funext j
  rw [View.read_apply]
  show Gcn.affineRelu (iblk6 V c 0 t) (iblk6 V c 1 t) (iblk6 V c 2 t) j = Gcn.affineRelu (V c main_v88) (V c main_arg8) (V c main_v89) (((cfg6.win 3).blk t).view.emb j)
  refine Gcn.affineRelu_congr (X := (iblk6 V c 0 t : Vec Ideal S10000x64 .f32)) (W := (iblk6 V c 1 t : Vec Ideal S64x64 .f32))
    (B := (iblk6 V c 2 t : Vec Ideal S1x64 .f32)) (A := V c main_v88) (W' := V c main_arg8) (B' := V c main_v89) j _
    (funext (read_w V c t)) (funext (read_b V c t)) (fun k => read_x V c t _ _ ?_ ?_) ?_
  · show (win6_3.index t (0 : Fin 2) * 10000 + 1 * (j 0).val) = t.val * 10000 + (j 0).val; omega
  · rfl
  · show (j 1).val = win6_3.index t (1 : Fin 2) * 64 + 1 * (j 1).val; omega

/-- An index of the output array is in point `t`'s tile iff each coordinate is in the tile's range. -/
theorem mem_blk (t : Fin cfg6.N) (i : S100000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v90).slice (win6_3.rect t)).set ↔ _
  rw [View.set_slice_whole, Rect.mem_set_unit]
  exact Iff.rfl

/-- The ten tiles cover the output array: row `p` is in tile `p / 10000`. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ : ∃ t : Fin cfg6.N, t.val = (i 0).val / 10000 := ⟨⟨(i 0).val / 10000, by rw [show cfg6.N = 10 from N_6]; omega⟩, rfl⟩
  obtain ⟨e0, e1, e2, e3, e4, e5, e6, e7⟩ := idx t
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 64 ≤ (i 1).val ∧ (i 1).val < win6_3.index t (1 : Fin 2) * 64 + 64; omega

/-- The output array after the region: the whole-array function of the arrays the region was entered with. -/
theorem final (c : Dev nD) : (dat6 V c).arrAt 3 cfg6.N = Gcn.affineRelu (V c main_v88) (V c main_arg8) (V c main_v89) :=
  (dat6 V c).arrAt_eq_of_cover 3 (Gcn.affineRelu (V c main_v88) (V c main_arg8) (V c main_v89)) (fun t _ => flushed V c t) cover

end Cert.KernelIdeal.Region6

end
-- ==== Proof.Region7.lean ====
/-
  Region 7 as one function of whole arrays.

  The region walks ten tiles of 10000 rows.  At tile `t` the body sees rows `10000 t … 10000 t + 9999` of its
  first operand, the whole weight matrix and the whole row vector, and leaves in the output tile
  the logistic function of the tile of rows times the weight matrix plus the row vector.  Entry (p, q) of that result depends only on row p of the first operand, so tile `t` of the
  output is tile `t` of ONE function of the whole arrays; the ten tiles cover the output array, which therefore
  ends holding that function of the arrays the region was entered with.
-/
import proofs.«166200_j68444598829350_1_alg».proof.Proof.Gen.KernelIdeal.Frame
import proofs.«166200_j68444598829350_1_alg».proof.Proof.LibAffineBodies
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are those of a plain matrix product. -/
theorem plain : PlainMatmul.IsPlain dot_S10000x64_S64x1_S10000x1_1_0_0_1_n_n := ⟨rfl, rfl, rfl, rfl, rfl, rfl⟩

/-- What the body leaves in the output tile, as a function of the tiles it loads. -/
theorem out_eq (x0 : Vec Ideal S10000x64 .f32) (x1 : Vec Ideal S64x1 .f32) (x2 : Vec Ideal S1x1 .f32) :
    out7_3 (F := Ideal) x0 x1 x2 = Gcn.affineLogistic x0 x1 x2 := by
  unfold out7_3
  rw [View.canon_unit_zero hz]
  unfold k7_pay1
  simp only [View.ld_unit_zero (S := S10000x64) hz, View.ld_unit_zero (S := S64x1) hz, View.ld_unit_zero (S := S1x1) hz, shapeCast_self]
  exact Gcn.linear_logistic_body plain x0 x1 x2 _ _ _

/-- The index maps over the grid: the row tiles move with the point, everything else stays at block 0. -/
theorem idx : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- The first operand's tile at point `t` is rows `10000 t …` of its array. -/
theorem read_x (c : Dev nD) (t : Fin cfg7.N) (y : S10000x64.Idx) (i : S100000x64.Idx)
    (h0 : (i 0).val = t.val * 10000 + (y 0).val) (h1 : (i 1).val = (y 1).val) :
    (iblk7 V c 0 t : Vec Ideal S10000x64 .f32) y = V c main_v90 i := by
  obtain ⟨e0, e1, e2, e3, e4, e5, e6, e7⟩ := idx t
  unfold iblk7
  rw [View.read_apply]
  show V c main_v90 _ = V c main_v90 _
  congr 1
  funext a
  apply Fin.ext
  match a with
  | ⟨0, _⟩ => show win7_0.index t (0 : Fin 2) * 10000 + 1 * (y 0).val = (i 0).val; omega
  | ⟨1, _⟩ => show win7_0.index t (1 : Fin 2) * 64 + 1 * (y 1).val = (i 1).val; omega

/-- The weight matrix's window is the whole matrix at every point. -/
theorem read_w (c : Dev nD) (t : Fin cfg7.N) (y : S64x1.Idx) :
    (iblk7 V c 1 t : Vec Ideal S64x1 .f32) y = V c main_arg10 y := by
  obtain ⟨e0, e1, e2, e3, e4, e5, e6, e7⟩ := idx t
  unfold iblk7
  rw [View.read_apply]
  show V c main_arg10 _ = V c main_arg10 _
  congr 1
  funext a
  apply Fin.ext
  match a with
  | ⟨0, _⟩ => show win7_1.index t (0 : Fin 2) * 64 + 1 * (y 0).val = (y 0).val; omega
  | ⟨1, _⟩ => show win7_1.index t (1 : Fin 2) * 1 + 1 * (y 1).val = (y 1).val; omega

/-- The row vector's window is the whole row vector at every point. -/
theorem read_b (c : Dev nD) (t : Fin cfg7.N) (y : S1x1.Idx) :
    (iblk7 V c 2 t : Vec Ideal S1x1 .f32) y = V c main_v91 y := by
  obtain ⟨e0, e1, e2, e3, e4, e5, e6, e7⟩ := idx t
  unfold iblk7
  rw [View.read_apply]
  show V c main_v91 _ = V c main_v91 _
  congr 1
  funext a
  apply Fin.ext
  match a with
  | ⟨0, _⟩ => show win7_2.index t (0 : Fin 2) * 1 + 1 * (y 0).val = (y 0).val; omega
  | ⟨1, _⟩ => show win7_2.index t (1 : Fin 2) * 1 + 1 * (y 1).val = (y 1).val; omega

/-- What point `t` writes back is tile `t` of the whole-array function. -/
theorem flushed (c : Dev nD) (t : Fin cfg7.N) :
    (dat7 V c).flushed 3 t = ((cfg7.win 3).blk t).view.read (Elt Ideal) (Gcn.affineLogistic (V c main_v90) (V c main_arg10) (V c main_v91)) := by
  show (cfg7.win 3).cut (grid7.coords t) ((dat7 V c).after 3 t) = _
  rw [after7_3, out_eq]
  obtain ⟨e0, e1, e2, e3, e4, e5, e6, e7⟩ := idx t
  funext j
  rw [View.read_apply]
  show Gcn.affineLogistic (iblk7 V c 0 t) (iblk7 V c 1 t) (iblk7 V c 2 t) j = Gcn.affineLogistic (V c main_v90) (V c main_arg10) (V c main_v91) (((cfg7.win 3).blk t).view.emb j)
  refine Gcn.affineLogistic_congr (X := (iblk7 V c 0 t : Vec Ideal S10000x64 .f32)) (W := (iblk7 V c 1 t : Vec Ideal S64x1 .f32))
    (B := (iblk7 V c 2 t : Vec Ideal S1x1 .f32)) (A := V c main_v90) (W' := V c main_arg10) (B' := V c main_v91) j _
    (funext (read_w V c t)) (funext (read_b V c t)) (fun k => read_x V c t _ _ ?_ ?_) ?_
  · show (win7_3.index t (0 : Fin 2) * 10000 + 1 * (j 0).val) = t.val * 10000 + (j 0).val; omega
  · rfl
  · show (j 1).val = win7_3.index t (1 : Fin 2) * 1 + 1 * (j 1).val; omega

/-- An index of the output array is in point `t`'s tile iff each coordinate is in the tile's range. -/
theorem mem_blk (t : Fin cfg7.N) (i : S100000x1.Idx) :
    i ∈ ((cfg7.win 3).blk t).view.set ↔ ∀ a : Fin 2, win7_3.index t a * S10000x1.size a ≤ (i a).val ∧ (i a).val < win7_3.index t a * S10000x1.size a + S10000x1.size a := by
  show i ∈ ((View.whole main_v92).slice (win7_3.rect t)).set ↔ _
  rw [View.set_slice_whole, Rect.mem_set_unit]
  exact Iff.rfl

/-- The ten tiles cover the output array: row `p` is in tile `p / 10000`. -/
theorem cover (i : S100000x1.Idx) : ∃ t : Fin cfg7.N, (cfg7.win 3).flush t = true ∧ i ∈ ((cfg7.win 3).blk t).view.set := by
  have hi0 : (i 0).val < 100000 := (i 0).isLt
  have hi1 : (i 1).val < 1 := (i 1).isLt
  obtain ⟨t, ht⟩ : ∃ t : Fin cfg7.N, t.val = (i 0).val / 10000 := ⟨⟨(i 0).val / 10000, by rw [show cfg7.N = 10 from N_7]; omega⟩, rfl⟩
  obtain ⟨e0, e1, e2, e3, e4, e5, e6, e7⟩ := idx t
  refine ⟨t, flush7_3 t, ?_⟩
  rw [mem_blk]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 1 ≤ (i 1).val ∧ (i 1).val < win7_3.index t (1 : Fin 2) * 1 + 1; omega

/-- The output array after the region: the whole-array function of the arrays the region was entered with. -/
theorem final (c : Dev nD) : (dat7 V c).arrAt 3 cfg7.N = Gcn.affineLogistic (V c main_v90) (V c main_arg10) (V c main_v91) :=
  (dat7 V c).arrAt_eq_of_cover 3 (Gcn.affineLogistic (V c main_v90) (V c main_arg10) (V c main_v91)) (fun t _ => flushed V c t) cover

end Cert.KernelIdeal.Region7

end
-- ==== Proof.Walk.lean ====
/-
  The kernel's result is the reference's result: the walk through @main.

  Stage by stage the kernel's buffers hold the reference's stages of the same arguments.  A matrix-product region
  with a zero row vector leaves the reference's matrix product; the aggregation stretch applies the reference's own
  gather / scale / scatter-add to it, over the sources, destinations and weights built once up front; a bias region
  leaves the reference's bias-and-clamp; the two dense regions leave the reference's dense layers, the last one
  through the logistic function.  Between the stages every buffer that is read later is carried unchanged.
-/
import proofs.«166200_j68444598829350_1_alg».proof.Defs
import proofs.«166200_j68444598829350_1_alg».proof.Proof.Gen.Kernel.Frame
import proofs.«166200_j68444598829350_1_alg».proof.Proof.Gen.Pre_finite_inputs
import proofs.«166200_j68444598829350_1_alg».proof.Proof.Gen.ReferenceIdeal
import proofs.«166200_j68444598829350_1_alg».proof.Proof.KRun
import proofs.«166200_j68444598829350_1_alg».proof.Proof.Keep
import proofs.«166200_j68444598829350_1_alg».proof.Proof.HostVals
import proofs.«166200_j68444598829350_1_alg».proof.Proof.RefStages
import proofs.«166200_j68444598829350_1_alg».proof.Proof.Region0
import proofs.«166200_j68444598829350_1_alg».proof.Proof.Region1
import proofs.«166200_j68444598829350_1_alg».proof.Proof.Region2
import proofs.«166200_j68444598829350_1_alg».proof.Proof.Region3
import proofs.«166200_j68444598829350_1_alg».proof.Proof.Region4
import proofs.«166200_j68444598829350_1_alg».proof.Proof.Region5
import proofs.«166200_j68444598829350_1_alg».proof.Proof.Region6
import proofs.«166200_j68444598829350_1_alg».proof.Proof.Region7
import proofs.«166200_j68444598829350_1_alg».proof.Proof.RunP
import proofs.«166200_j68444598829350_1_alg».proof.Proof.ReadP

set_option maxRecDepth 16384

noncomputable section

namespace Cert.KernelIdeal.Walk

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Layer 1 -/

theorem product1 : W6 m ρ c (Proc.devRef .tc main_v37) = Cert.ReferenceIdeal.ReadP.val_main_v7 (F := Ideal) (m ((c : Thread nD τ).loc main_arg0)) (m ((c : Thread nD τ).loc main_arg2)) := by
  refine ((W6_arr m ρ c 3).trans (Region0.final (V5 m ρ) c)).trans ?_
  show Gcn.affine (W5 m ρ c (Proc.devRef .tc main_arg0)) (W5 m ρ c (Proc.devRef .tc main_arg2)) (W5 m ρ c (Proc.devRef .tc main_v36)) = _
  rw [Keep.keep_arg0_5_0 m ρ c, Keep.keep_arg2_5_0 m ρ c]
  exact Cert.ReferenceIdeal.Stages.dot_v7 _ _ _ (HostVals.zero36 m ρ c)

theorem aggregate1 : W7 m ρ c (Proc.devRef .tc main_v50) = Cert.ReferenceIdeal.ReadP.val_main_v48 (F := Ideal) (m ((c : Thread nD τ).loc main_arg0)) (m ((c : Thread nD τ).loc main_arg1)) (m ((c : Thread nD τ).loc main_arg2)) := by
  rw [HostVals.stretch1 m ρ c, Keep.keep_v5_6_5 m ρ c, Keep.keep_v6_6_5 m ρ c, Keep.keep_v34_6_5 m ρ c,
    HostVals.sources m ρ c, HostVals.destinations m ρ c, HostVals.weights m ρ c, product1 m ρ c]
  exact HostVals.aggregate_v48 _ _ _

theorem layer1 : W8 m ρ c (Proc.devRef .tc main_v52) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) := by
  refine ((W8_arr m ρ c 2).trans (Region1.final (V7 m ρ) c)).trans ?_
  show Gcn.biasRelu (W7 m ρ c (Proc.devRef .tc main_v50)) (W7 m ρ c (Proc.devRef .tc main_v51)) = _
  rw [aggregate1 m ρ c]
  refine Cert.ReferenceIdeal.Stages.relu_v52 _ _ _ _ _ (fun q => ?_)
  rw [HostVals.row51 m ρ c q, Keep.keep_arg3_6_0 m ρ c]

/-! ## Layer 2 -/

theorem product2 : W10 m ρ c (Proc.devRef .tc main_v55) = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W10_arr m ρ c 3).trans (Region2.final (V9 m ρ) c)).trans ?_
  show Gcn.affine (W9 m ρ c (Proc.devRef .tc main_v52)) (W9 m ρ c (Proc.devRef .tc main_arg4)) (W9 m ρ c (Proc.devRef .tc main_v54)) = _
  rw [Keep.keep_v52_9_8 m ρ c, layer1 m ρ c, Keep.keep_arg4_9_0 m ρ c]
  exact Cert.ReferenceIdeal.Stages.dot_v56 _ _ _ _ _ _ (HostVals.zero54 m ρ c)

theorem aggregate2 : W11 m ρ c (Proc.devRef .tc main_v68) = Cert.ReferenceIdeal.ReadP.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [HostVals.stretch3 m ρ c, Keep.keep_v5_10_6 m ρ c, Keep.keep_v6_10_6 m ρ c, Keep.keep_v34_10_6 m ρ c,
    Keep.keep_v5_6_5 m ρ c, Keep.keep_v6_6_5 m ρ c, Keep.keep_v34_6_5 m ρ c,
    HostVals.sources m ρ c, HostVals.destinations m ρ c, HostVals.weights m ρ c, product2 m ρ c]
  exact HostVals.aggregate_v97 _ _ _ _ _

theorem layer2 : W12 m ρ c (Proc.devRef .tc main_v70) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W12_arr m ρ c 2).trans (Region3.final (V11 m ρ) c)).trans ?_
  show Gcn.biasRelu (W11 m ρ c (Proc.devRef .tc main_v68)) (W11 m ρ c (Proc.devRef .tc main_v69)) = _
  rw [aggregate2 m ρ c]
  refine Cert.ReferenceIdeal.Stages.relu_v101 _ _ _ _ _ _ _ (fun q => ?_)
  rw [HostVals.row69 m ρ c q, Keep.keep_arg5_10_0 m ρ c]

/-! ## Layer 3 -/

theorem product3 : W14 m ρ c (Proc.devRef .tc main_v73) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W14_arr m ρ c 3).trans (Region4.final (V13 m ρ) c)).trans ?_
  show Gcn.affine (W13 m ρ c (Proc.devRef .tc main_v70)) (W13 m ρ c (Proc.devRef .tc main_arg6)) (W13 m ρ c (Proc.devRef .tc main_v72)) = _
  rw [Keep.keep_v70_13_12 m ρ c, layer2 m ρ c, Keep.keep_arg6_13_0 m ρ c]
  exact Cert.ReferenceIdeal.Stages.dot_v105 _ _ _ _ _ _ _ _ (HostVals.zero72 m ρ c)

theorem aggregate3 : W15 m ρ c (Proc.devRef .tc main_v86) = Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HostVals.stretch5 m ρ c, Keep.keep_v5_14_10 m ρ c, Keep.keep_v6_14_10 m ρ c, Keep.keep_v34_14_10 m ρ c,
    Keep.keep_v5_10_6 m ρ c, Keep.keep_v6_10_6 m ρ c, Keep.keep_v34_10_6 m ρ c,
    Keep.keep_v5_6_5 m ρ c, Keep.keep_v6_6_5 m ρ c, Keep.keep_v34_6_5 m ρ c,
    HostVals.sources m ρ c, HostVals.destinations m ρ c, HostVals.weights m ρ c, product3 m ρ c]
  exact HostVals.aggregate_v146 _ _ _ _ _ _ _

theorem layer3 : W16 m ρ c (Proc.devRef .tc main_v88) = Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W16_arr m ρ c 2).trans (Region5.final (V15 m ρ) c)).trans ?_
  show Gcn.biasRelu (W15 m ρ c (Proc.devRef .tc main_v86)) (W15 m ρ c (Proc.devRef .tc main_v87)) = _
  rw [aggregate3 m ρ c]
  refine Cert.ReferenceIdeal.Stages.relu_v150 _ _ _ _ _ _ _ _ _ (fun q => ?_)
  rw [HostVals.row87 m ρ c q, Keep.keep_arg7_14_0 m ρ c]

/-! ## The dense layers -/

theorem dense1 : W18 m ρ c (Proc.devRef .tc main_v90) = Cert.ReferenceIdeal.ReadP.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W18_arr m ρ c 3).trans (Region6.final (V17 m ρ) c)).trans ?_
  show Gcn.affineRelu (W17 m ρ c (Proc.devRef .tc main_v88)) (W17 m ρ c (Proc.devRef .tc main_arg8)) (W17 m ρ c (Proc.devRef .tc main_v89)) = _
  rw [Keep.keep_v88_17_16 m ρ c, layer3 m ρ c, Keep.keep_arg8_17_0 m ρ c]
  refine Cert.ReferenceIdeal.Stages.dense_v155 _ _ _ _ _ _ _ _ _ _ _ (fun q => ?_)
  rw [HostVals.row89 m ρ c q, Keep.keep_arg9_16_0 m ρ c]

/-- The result array after the last region is the reference's result of the same arguments. -/
theorem result : W20 m ρ c (Proc.devRef .tc main_v92) = Cert.ReferenceIdeal.ReadP.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W20_arr m ρ c 3).trans (Region7.final (V19 m ρ) c)).trans ?_
  show Gcn.affineLogistic (W19 m ρ c (Proc.devRef .tc main_v90)) (W19 m ρ c (Proc.devRef .tc main_arg10)) (W19 m ρ c (Proc.devRef .tc main_v91)) = _
  rw [Keep.keep_v90_19_18 m ρ c, dense1 m ρ c, Keep.keep_arg10_19_0 m ρ c]
  refine Cert.ReferenceIdeal.Stages.dense_v165 _ _ _ _ _ _ _ _ _ _ _ _ _ ?_
  rw [HostVals.row91 m ρ c 0, Keep.keep_arg11_18_0 m ρ c]

end Cert.KernelIdeal.Walk

/-! ## The claims -/

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs run; the kernel's result array ends at the last boundary's contents, which the walk shows to be the
    reference's result of the same arguments. -/
theorem algebraic : Cert.algebraic_KernelIdeal_ReferenceIdeal := by
  intro m ρ m' ρ' _ hagree
  refine ⟨fun c => Cert.KernelIdeal.Gen.W20 m ρ c (Proc.devRef .tc Cert.KernelIdeal.main_v92),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v165_eq, h0, h1, h2, h3, h4, h5, h6, h7, h8, h9, h10, h11]
  exact (Cert.KernelIdeal.Walk.result m ρ c).symm

end Cert.Proof.Claims

end
-- ==== Proof.lean ====
/-
  A three-layer graph convolution with a two-layer dense head, tiled, against its plain formulation.

  Over the extended reals both programs compute, for node features `x` and an edge list with one loop added per node,
  `h ↦ max (A (h · W) + b) 0` three times — `A` the degree-normalised adjacency, applied as a gather of rows at the edge
  sources, a scaling by `d(src)^(-1/2) d(dst)^(-1/2)` and a sum at the edge destinations —, then `max (h · Wm1 + bm1) 0`
  and the logistic function of `h · Wm2 + bm2`.  The kernel does every matrix product, bias and activation in tiles of
  10000 rows and builds the edge weights once; the reference works on whole arrays and rebuilds the weights per layer.
  The two agree stage by stage: a tiled product with a zero row vector is the whole product (Region*.lean, RefStages.lean),
  the aggregation is the same host operations on both sides (HostVals.lean), and `1 / (1 + exp (-x))` is the logistic
  function.  No law used needs finiteness, so the precondition is never opened.  Walk.lean chains the stages and states
  the five claims, assembled here behind the witnesses of the programs' stated facts.
-/
import proofs.«166200_j68444598829350_1_alg».proof.Defs
import proofs.«166200_j68444598829350_1_alg».proof.Proof.Gen.Kernel
import proofs.«166200_j68444598829350_1_alg».proof.Proof.Gen.KernelIdeal
import proofs.«166200_j68444598829350_1_alg».proof.Proof.Gen.ReferenceIdeal
import proofs.«166200_j68444598829350_1_alg».proof.Proof.Gen.Pre_finite_inputs
import proofs.«166200_j68444598829350_1_alg».proof.Proof.Walk
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
